-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg17 : FVec F S128x64 .f32) (main_arg18 : FVec F S64 .f32) (main_v63 : IVec S_ 1) (main_v67 : IVec S_ 1) : IVec S_ 1 :=
  let main_v68 : IVec S_ 1 := andi main_v63 main_v67
  let main_v69 : FVec F S128x64 .f32 := Host.absf main_arg17
  let main_cst_26 : FVec F S_ .f32 := constant S_ .f32 0x7F800000#32
  let main_v70 : FVec F S128x64 .f32 := broadcastInDim S128x64 ![] bcast_S_S128x64 main_cst_26
  let main_v71 : IVec S128x64 1 := cmpf .olt main_v69 main_v70
  let main_c_27 : IVec S_ 1 := constantI S_ 1 1#1
  let main_v72 : IVec S_ 1 := (fun x v => Host.reduce IntOp.andi x v reducesTo_S128x64_S_d0_1 h_S_) main_v71 main_c_27
  let main_v73 : IVec S_ 1 := andi main_v68 main_v72
  let main_v74 : FVec F S64 .f32 := Host.absf main_arg18
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  main_v78

def fn_part3 {F : FTy → Type} [FloatOps F] (main_arg14 : FVec F S128 .f32) (main_arg15 : FVec F S128x128 .f32) (main_arg16 : FVec F S128 .f32) (main_arg17 : FVec F S128x64 .f32) (main_arg18 : FVec F S64 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg15
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg16
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg17 main_arg18 main_v63 main_v67

def fn_part2 {F : FTy → Type} [FloatOps F] (main_arg10 : FVec F S128x128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x64 .f32) (main_arg18 : FVec F S64 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg13
  let main_cst_18 : FVec F S_ .f32 := constant S_ .f32 0x7F800000#32
  let main_v50 : FVec F S128x128 .f32 := broadcastInDim S128x128 ![] bcast_S_S128x128 main_cst_18
  fn_part3 (F := F) main_arg14 main_arg15 main_arg16 main_arg17 main_arg18 main_v48 main_v49 main_v50

def fn_part1 {F : FTy → Type} [FloatOps F] (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x64 .f32) (main_arg18 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_arg16 main_arg17 main_arg18 main_v33

def fn {F : FTy → Type} [FloatOps F] (main_arg0 : FVec F S50000x128 .f32) (main_arg1 : IVec S600000 32) (main_arg2 : IVec S600000 32) (main_arg3 : IVec S50000 32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x64 .f32) (main_arg18 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S600000 : Shape := ⟨1, ![600000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S5000x128 : Shape := ⟨2, ![5000, 128]⟩
abbrev S1x64 : Shape := ⟨2, ![1, 64]⟩
abbrev S50000x64 : Shape := ⟨2, ![50000, 64]⟩
abbrev S5000x64 : Shape := ⟨2, ![5000, 64]⟩
abbrev S64x64 : Shape := ⟨2, ![64, 64]⟩
abbrev S64x1 : Shape := ⟨2, ![64, 1]⟩

abbrev nBuf : Space → Nat
  | .hbm => 124
  | .vmem => 37
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S50000, .i32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x64, .f32⟩
  | .hbm, ⟨18, _⟩ => ⟨S64, .f32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x128, .f32⟩
  | .hbm, ⟨28, _⟩ => ⟨S_, .f32⟩
  | .hbm, ⟨29, _⟩ => ⟨S50000x128, .f32⟩
  | .hbm, ⟨30, _⟩ => ⟨S600000x1, .i32⟩
  | .hbm, ⟨31, _⟩ => ⟨S50000x128, .f32⟩
  | .hbm, ⟨32, _⟩ => ⟨S_, .f32⟩
  | .hbm, ⟨33, _⟩ => ⟨S600000, .f32⟩
  | .hbm, ⟨34, _⟩ => ⟨S_, .f32⟩
  | .hbm, ⟨35, _⟩ => ⟨S50000, .f32⟩
  | .hbm, ⟨36, _⟩ => ⟨S600000x1, .i32⟩
  | .hbm, ⟨37, _⟩ => ⟨S50000, .f32⟩
  | .hbm, ⟨38, _⟩ => ⟨S_, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000x1, .f32⟩
  | .hbm, ⟨43, _⟩ => ⟨S50000x128, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S_, .i32⟩
  | .hbm, ⟨48, _⟩ => ⟨S600000, .i32⟩
  | .hbm, ⟨49, _⟩ => ⟨S600000, .i1⟩
  | .hbm, ⟨50, _⟩ => ⟨S_, .i32⟩
  | .hbm, ⟨51, _⟩ => ⟨S600000, .i32⟩
  | .hbm, ⟨52, _⟩ => ⟨S600000, .i32⟩
  | .hbm, ⟨53, _⟩ => ⟨S600000, .i32⟩
  | .hbm, ⟨54, _⟩ => ⟨S600000x1, .i32⟩
  | .hbm, ⟨55, _⟩ => ⟨S600000x128, .f32⟩
  | .hbm, ⟨56, _⟩ => ⟨S_, .f32⟩
  | .hbm, ⟨57, _⟩ => ⟨S50000x128, .f32⟩
  | .hbm, ⟨58, _⟩ => ⟨S600000x1, .i32⟩
  | .hbm, ⟨59, _⟩ => ⟨S50000x128, .f32⟩
  | .hbm, ⟨60, _⟩ => ⟨S_, .f32⟩
  | .hbm, ⟨61, _⟩ => ⟨S600000, .f32⟩
  | .hbm, ⟨62, _⟩ => ⟨S_, .f32⟩
  | .hbm, ⟨63, _⟩ => ⟨S50000, .f32⟩
  | .hbm, ⟨64, _⟩ => ⟨S600000x1, .i32⟩
  | .hbm, ⟨65, _⟩ => ⟨S50000, .f32⟩
  | .hbm, ⟨66, _⟩ => ⟨S_, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S_, .i32⟩
  | .hbm, ⟨76, _⟩ => ⟨S600000, .i32⟩
  | .hbm, ⟨77, _⟩ => ⟨S600000, .i1⟩
  | .hbm, ⟨78, _⟩ => ⟨S_, .i32⟩
  | .hbm, ⟨79, _⟩ => ⟨S600000, .i32⟩
  | .hbm, ⟨80, _⟩ => ⟨S600000, .i32⟩
  | .hbm, ⟨81, _⟩ => ⟨S600000, .i32⟩
  | .hbm, ⟨82, _⟩ => ⟨S600000x1, .i32⟩
  | .hbm, ⟨83, _⟩ => ⟨S600000x128, .f32⟩
  | .hbm, ⟨84, _⟩ => ⟨S_, .f32⟩
  | .hbm, ⟨85, _⟩ => ⟨S50000x128, .f32⟩
  | .hbm, ⟨86, _⟩ => ⟨S600000x1, .i32⟩
  | .hbm, ⟨87, _⟩ => ⟨S50000x128, .f32⟩
  | .hbm, ⟨88, _⟩ => ⟨S_, .f32⟩
  | .hbm, ⟨89, _⟩ => ⟨S600000, .f32⟩
  | .hbm, ⟨90, _⟩ => ⟨S_, .f32⟩
  | .hbm, ⟨91, _⟩ => ⟨S50000, .f32⟩
  | .hbm, ⟨92, _⟩ => ⟨S600000x1, .i32⟩
  | .hbm, ⟨93, _⟩ => ⟨S50000, .f32⟩
  | .hbm, ⟨94, _⟩ => ⟨S_, .f32⟩
  | .hbm, ⟨95, _⟩ => ⟨S_, .f32⟩
  | .hbm, ⟨96, _⟩ => ⟨S50000, .f32⟩
  | .hbm, ⟨97, _⟩ => ⟨S50000, .f32⟩
  | .hbm, ⟨98, _⟩ => ⟨S50000x1, .f32⟩
  | .hbm, ⟨99, _⟩ => ⟨S50000x128, .f32⟩
  | .hbm, ⟨100, _⟩ => ⟨S50000x128, .f32⟩
  | .hbm, ⟨101, _⟩ => ⟨S1x128, .f32⟩
  | .hbm, ⟨102, _⟩ => ⟨S50000x128, .f32⟩
  | .hbm, ⟨103, _⟩ => ⟨S1x128, .f32⟩
  | .hbm, ⟨104, _⟩ => ⟨S1x128, .f32⟩
  | .hbm, ⟨105, _⟩ => ⟨S1x64, .f32⟩
  | .hbm, ⟨106, _⟩ => ⟨S50000x64, .f32⟩
  | .hbm, ⟨107, _⟩ => ⟨S_, .f32⟩
  | .hbm, ⟨108, _⟩ => ⟨S64x64, .f32⟩
  | .hbm, ⟨109, _⟩ => ⟨S50000x1, .i32⟩
  | .hbm, ⟨110, _⟩ => ⟨S64x64, .f32⟩
  | .hbm, ⟨111, _⟩ => ⟨S_, .f32⟩
  | .hbm, ⟨112, _⟩ => ⟨S50000, .f32⟩
  | .hbm, ⟨113, _⟩ => ⟨S_, .f32⟩
  | .hbm, ⟨114, _⟩ => ⟨S64, .f32⟩
  | .hbm, ⟨115, _⟩ => ⟨S50000x1, .i32⟩
  | .hbm, ⟨116, _⟩ => ⟨S64, .f32⟩
  | .hbm, ⟨117, _⟩ => ⟨S_, .f32⟩
  | .hbm, ⟨118, _⟩ => ⟨S_, .f32⟩
  | .hbm, ⟨119, _⟩ => ⟨S64, .f32⟩
  | .hbm, ⟨120, _⟩ => ⟨S64, .f32⟩
  | .hbm, ⟨121, _⟩ => ⟨S64x1, .f32⟩
  | .hbm, ⟨122, _⟩ => ⟨S64x64, .f32⟩
  | .hbm, ⟨123, _⟩ => ⟨S64x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S128x128, .f32⟩
  | .local _ .vmem, ⟨30, _⟩ => ⟨S1x128, .f32⟩
  | .local _ .vmem, ⟨31, _⟩ => ⟨S128x128, .f32⟩
  | .local _ .vmem, ⟨32, _⟩ => ⟨S1x128, .f32⟩
  | .local _ .vmem, ⟨33, _⟩ => ⟨S128x64, .f32⟩
  | .local _ .vmem, ⟨34, _⟩ => ⟨S1x64, .f32⟩
  | .local _ .vmem, ⟨35, _⟩ => ⟨S5000x64, .f32⟩
  | .local _ .vmem, ⟨36, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_1 : Ref sig .tc := ⟨.hbm, 32, rfl⟩
abbrev main_v10 : Ref sig .tc := ⟨.hbm, 33, rfl⟩
abbrev main_cst_2 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_c_4 : Ref sig .tc := ⟨.hbm, 47, rfl⟩
abbrev main_v20 : Ref sig .tc := ⟨.hbm, 48, rfl⟩
abbrev main_v21 : Ref sig .tc := ⟨.hbm, 49, rfl⟩
abbrev main_c_5 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_6 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_7 : Ref sig .tc := ⟨.hbm, 60, rfl⟩
abbrev main_v30 : Ref sig .tc := ⟨.hbm, 61, rfl⟩
abbrev main_cst_8 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_9 : Ref sig .tc := ⟨.hbm, 66, rfl⟩
abbrev main_call1_v0 : Ref sig .tc := ⟨.hbm, 67, rfl⟩
abbrev main_call1_v1 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_c_10 : Ref sig .tc := ⟨.hbm, 75, rfl⟩
abbrev main_v40 : Ref sig .tc := ⟨.hbm, 76, rfl⟩
abbrev main_v41 : Ref sig .tc := ⟨.hbm, 77, rfl⟩
abbrev main_c_11 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_12 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_13 : Ref sig .tc := ⟨.hbm, 88, rfl⟩
abbrev main_v50 : Ref sig .tc := ⟨.hbm, 89, rfl⟩
abbrev main_cst_14 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_cst_15 : Ref sig .tc := ⟨.hbm, 94, rfl⟩
abbrev main_call2_v0 : Ref sig .tc := ⟨.hbm, 95, rfl⟩
abbrev main_call2_v1 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_cst_16 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_cst_17 : Ref sig .tc := ⟨.hbm, 111, rfl⟩
abbrev main_v67 : Ref sig .tc := ⟨.hbm, 112, rfl⟩
abbrev main_cst_18 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_cst_19 : Ref sig .tc := ⟨.hbm, 117, rfl⟩
abbrev main_call3_v0 : Ref sig .tc := ⟨.hbm, 118, rfl⟩
abbrev main_call3_v1 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg7_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem7_1 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x64.size a ≤ S128x64.size a
  hwx3_5 : ∀ i : grid3.Coords, EltTy.bits .f32 = 32 ∨ (Rect.block (s := S128x64) S128x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x64.size a ≤ S50000x64.size a
  hwx3_7 : ∀ i : grid3.Coords, EltTy.bits .f32 = 32 ∨ (Rect.block (s := S50000x64) S5000x64.size (cc3_transform_7 i) (hinb3_7 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg13) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg15) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg17) S128x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v62) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v63) S5000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x128 : Shape := ⟨2, ![50000, 128]⟩
abbrev S600000 : Shape := ⟨1, ![600000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S50000x64 : Shape := ⟨2, ![50000, 64]⟩
abbrev S1x64 : Shape := ⟨2, ![1, 64]⟩
abbrev S64x64 : Shape := ⟨2, ![64, 64]⟩
abbrev S64x1 : Shape := ⟨2, ![64, 1]⟩

abbrev nBuf : Space → Nat
  | .hbm => 156
  | .vmem => 0
  | .smem => 0
  | _ => 0

abbrev hbmTy0_0 (i : Nat) : BufTy := match i % 128 with
  | 0 => ⟨S50000x128, .f32⟩
  | 1 => ⟨S600000, .i32⟩
  | 2 => ⟨S600000, .i32⟩
  | 3 => ⟨S50000, .i32⟩
  | 4 => ⟨S128x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128x64, .f32⟩
  | 18 => ⟨S64, .f32⟩
  | 19 => ⟨S50000x128, .f32⟩
  | 20 => ⟨S1x128, .f32⟩
  | 21 => ⟨S50000x128, .f32⟩
  | 22 => ⟨S50000x128, .f32⟩
  | 23 => ⟨S_, .i32⟩
  | 24 => ⟨S600000, .i32⟩
  | 25 => ⟨S600000, .i1⟩
  | 26 => ⟨S_, .i32⟩
  | 27 => ⟨S600000, .i32⟩
  | 28 => ⟨S600000, .i32⟩
  | 29 => ⟨S600000, .i32⟩
  | 30 => ⟨S600000x1, .i32⟩
  | 31 => ⟨S600000x128, .f32⟩
  | 32 => ⟨S_, .f32⟩
  | 33 => ⟨S50000x128, .f32⟩
  | 34 => ⟨S600000x1, .i32⟩
  | 35 => ⟨S50000x128, .f32⟩
  | 36 => ⟨S_, .f32⟩
  | 37 => ⟨S600000, .f32⟩
  | 38 => ⟨S_, .f32⟩
  | 39 => ⟨S50000, .f32⟩
  | 40 => ⟨S600000x1, .i32⟩
  | 41 => ⟨S50000, .f32⟩
  | 42 => ⟨S_, .f32⟩
  | 43 => ⟨S_, .f32⟩
  | 44 => ⟨S50000, .f32⟩
  | 45 => ⟨S50000, .f32⟩
  | 46 => ⟨S50000x1, .f32⟩
  | 47 => ⟨S50000x128, .f32⟩
  | 48 => ⟨S50000x128, .f32⟩
  | 49 => ⟨S50000x128, .f32⟩
  | 50 => ⟨S50000x128, .f32⟩
  | 51 => ⟨S_, .f32⟩
  | 52 => ⟨S50000x128, .f32⟩
  | 53 => ⟨S50000x128, .f32⟩
  | 54 => ⟨S50000x128, .f32⟩
  | 55 => ⟨S1x128, .f32⟩
  | 56 => ⟨S50000x128, .f32⟩
  | 57 => ⟨S50000x128, .f32⟩
  | 58 => ⟨S_, .i32⟩
  | 59 => ⟨S600000, .i32⟩
  | 60 => ⟨S600000, .i1⟩
  | 61 => ⟨S_, .i32⟩
  | 62 => ⟨S600000, .i32⟩
  | 63 => ⟨S600000, .i32⟩
  | 64 => ⟨S600000, .i32⟩
  | 65 => ⟨S600000x1, .i32⟩
  | 66 => ⟨S600000x128, .f32⟩
  | 67 => ⟨S_, .f32⟩
  | 68 => ⟨S50000x128, .f32⟩
  | 69 => ⟨S600000x1, .i32⟩
  | 70 => ⟨S50000x128, .f32⟩
  | 71 => ⟨S_, .f32⟩
  | 72 => ⟨S600000, .f32⟩
  | 73 => ⟨S_, .f32⟩
  | 74 => ⟨S50000, .f32⟩
  | 75 => ⟨S600000x1, .i32⟩
  | 76 => ⟨S50000, .f32⟩
  | 77 => ⟨S_, .f32⟩
  | 78 => ⟨S_, .f32⟩
  | 79 => ⟨S50000, .f32⟩
  | 80 => ⟨S50000, .f32⟩
  | 81 => ⟨S50000x1, .f32⟩
  | 82 => ⟨S50000x128, .f32⟩
  | 83 => ⟨S50000x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S_, .i32⟩
  | 94 => ⟨S600000, .i32⟩
  | 95 => ⟨S600000, .i1⟩
  | 96 => ⟨S_, .i32⟩
  | 97 => ⟨S600000, .i32⟩
  | 98 => ⟨S600000, .i32⟩
  | 99 => ⟨S600000, .i32⟩
  | 100 => ⟨S600000x1, .i32⟩
  | 101 => ⟨S600000x128, .f32⟩
  | 102 => ⟨S_, .f32⟩
  | 103 => ⟨S50000x128, .f32⟩
  | 104 => ⟨S600000x1, .i32⟩
  | 105 => ⟨S50000x128, .f32⟩
  | 106 => ⟨S_, .f32⟩
  | 107 => ⟨S600000, .f32⟩
  | 108 => ⟨S_, .f32⟩
  | 109 => ⟨S50000, .f32⟩
  | 110 => ⟨S600000x1, .i32⟩
  | 111 => ⟨S50000, .f32⟩
  | 112 => ⟨S_, .f32⟩
  | 113 => ⟨S_, .f32⟩
  | 114 => ⟨S50000, .f32⟩
  | 115 => ⟨S50000, .f32⟩
  | 116 => ⟨S50000x1, .f32⟩
  | 117 => ⟨S50000x128, .f32⟩
  | 118 => ⟨S50000x128, .f32⟩
  | 119 => ⟨S50000x128, .f32⟩
  | 120 => ⟨S50000x128, .f32⟩
  | 121 => ⟨S50000x128, .f32⟩
  | 122 => ⟨S1x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | 1 => ⟨S1x128, .f32⟩
  | 2 => ⟨S50000x128, .f32⟩
  | 3 => ⟨S50000x128, .f32⟩
  | 4 => ⟨S_, .f32⟩
  | 5 => ⟨S50000x128, .f32⟩
  | 6 => ⟨S50000x128, .f32⟩
  | 7 => ⟨S50000x64, .f32⟩
  | 8 => ⟨S1x64, .f32⟩
  | 9 => ⟨S50000x64, .f32⟩
  | 10 => ⟨S50000x64, .f32⟩
  | 11 => ⟨S_, .f32⟩
  | 12 => ⟨S64x64, .f32⟩
  | 13 => ⟨S50000x1, .i32⟩
  | 14 => ⟨S64x64, .f32⟩
  | 15 => ⟨S_, .f32⟩
  | 16 => ⟨S50000, .f32⟩
  | 17 => ⟨S_, .f32⟩
  | 18 => ⟨S64, .f32⟩
  | 19 => ⟨S50000x1, .i32⟩
  | 20 => ⟨S64, .f32⟩
  | 21 => ⟨S_, .f32⟩
  | 22 => ⟨S_, .f32⟩
  | 23 => ⟨S64, .f32⟩
  | 24 => ⟨S64, .f32⟩
  | 25 => ⟨S64x1, .f32⟩
  | 26 => ⟨S64x64, .f32⟩
  | 27 => ⟨S64x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_call0_v0 : Ref sig .tc := ⟨.hbm, 43, rfl⟩
abbrev main_call0_v1 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_call1_cst : Ref sig .tc := ⟨.hbm, 51, rfl⟩
abbrev main_call1_v0 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c_4 : Ref sig .tc := ⟨.hbm, 58, rfl⟩
abbrev main_v29 : Ref sig .tc := ⟨.hbm, 59, rfl⟩
abbrev main_v30 : Ref sig .tc := ⟨.hbm, 60, rfl⟩
abbrev main_c_5 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_6 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_7 : Ref sig .tc := ⟨.hbm, 71, rfl⟩
abbrev main_v39 : Ref sig .tc := ⟨.hbm, 72, rfl⟩
abbrev main_cst_8 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_9 : Ref sig .tc := ⟨.hbm, 77, rfl⟩
abbrev main_call2_v0 : Ref sig .tc := ⟨.hbm, 78, rfl⟩
abbrev main_call2_v1 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_call3_cst : Ref sig .tc := ⟨.hbm, 86, rfl⟩
abbrev main_call3_v0 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_c_10 : Ref sig .tc := ⟨.hbm, 93, rfl⟩
abbrev main_v54 : Ref sig .tc := ⟨.hbm, 94, rfl⟩
abbrev main_v55 : Ref sig .tc := ⟨.hbm, 95, rfl⟩
abbrev main_c_11 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_cst_12 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_cst_13 : Ref sig .tc := ⟨.hbm, 106, rfl⟩
abbrev main_v64 : Ref sig .tc := ⟨.hbm, 107, rfl⟩
abbrev main_cst_14 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_cst_15 : Ref sig .tc := ⟨.hbm, 112, rfl⟩
abbrev main_call4_v0 : Ref sig .tc := ⟨.hbm, 113, rfl⟩
abbrev main_call4_v1 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_call5_cst : Ref sig .tc := ⟨.hbm, 125, rfl⟩
abbrev main_call5_v0 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_call6_cst : Ref sig .tc := ⟨.hbm, 132, rfl⟩
abbrev main_call6_v0 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_cst_16 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_cst_17 : Ref sig .tc := ⟨.hbm, 143, rfl⟩
abbrev main_v91 : Ref sig .tc := ⟨.hbm, 144, rfl⟩
abbrev main_cst_18 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_cst_19 : Ref sig .tc := ⟨.hbm, 149, rfl⟩
abbrev main_call7_v0 : Ref sig .tc := ⟨.hbm, 150, rfl⟩
abbrev main_call7_v1 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x64_S50000x64_1_0_0_1_n_n_wf : DotDims.WF S50000x128 S128x64 S50000x64 [1] [0] [0] [1] [] []
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.Net.lean ====
/-
  The reference's result as a composition of named layers.

  The reference computes, from the node features h, the edge lists src and dst, the graph ids and the weights:
  three message-passing layers  x ↦ (x·Wself + b) + meanAgg(x)·Wneigh  (the first two followed by max(·, 0)), where
  meanAgg(x) gathers the rows x[src[e]], adds them into row dst[e], and divides row v by max(1, indegree v); three
  dense layers  x ↦ x·W + b  (the first two followed by max(·, 0)); and a pooling that adds the rows of one graph and
  divides by max(1, number of its nodes).  Each layer is named here once, over the host operations the reference's
  program prints, and the result term of the reference's run is their composition (by unfolding the names).
-/
import proofs.«127197_j29540785062522_1_alg».proof.Proof.Gen.ReferenceIdeal.Run
import Idealize.ShloMosaic.PureOps.Ideal

noncomputable section

namespace Cert.Net

open Cert.ReferenceIdeal Idealize.ShloMosaic Idealize.ShloMosaic.TcCoe Idealize.SL.Sem

open Cert.ReferenceIdeal.Facts₀ Cert.ReferenceIdeal.Facts

abbrev Nodes := FVec Ideal S50000x128 .f32
abbrev Out := FVec Ideal S50000x64 .f32
abbrev Edges := (⟨S600000, .i32⟩ : BufTy).Contents (Elt Ideal)
abbrev Wt := FVec Ideal S128x128 .f32
abbrev Wt64 := FVec Ideal S128x64 .f32
abbrev Bias := FVec Ideal S128 .f32
abbrev Bias64 := FVec Ideal S64 .f32
abbrev Gids := (⟨S50000, .i32⟩ : BufTy).Contents (Elt Ideal)
abbrev Pooled := FVec Ideal S64x64 .f32

/-- The source node of every edge, a negative index wrapped once by the number of nodes, as a column of indices. -/
def srcIdx (src : Edges) : (⟨S600000x1, .i32⟩ : BufTy).Contents (Elt Ideal) :=
  broadcastInDim S600000x1 ![0] bcast_S600000_S600000x1_0 (select (cmpi .slt src (broadcastInDim S600000 ![] bcast_S_S600000 (constantI S_ 32 0#32))) (addi src (broadcastInDim S600000 ![] bcast_S_S600000 (constantI S_ 32 50000#32))) src)

/-- Row v: the sum of the rows x[src e] over the edges e into v, divided by max(1, number of such edges). -/
def meanAgg (x : Nodes) (src dst : Edges) : Nodes :=
  Host.divf (Host.scatterAdd scatter_S50000x128_S600000x1_S600000x128_1_0_0_1 (broadcastInDim S50000x128 ![] bcast_S_S50000x128 (constant S_ .f32 0x00000000#32)) (broadcastInDim S600000x1 ![0] bcast_S600000_S600000x1_0 dst) (Host.gather gather_S50000x128_S600000x1_S600000x128_1_0_n_n_0_1_1128 x (srcIdx src))) (broadcastInDim S50000x128 ![0, 1] bcast_S50000x1_S50000x128_0_1 (broadcastInDim S50000x1 ![0] bcast_S50000_S50000x1_0 (maximumf (broadcastInDim S50000 ![] bcast_S_S50000 (id (constant S_ .f32 0x3F800000#32))) (Host.scatterAdd scatter_S50000_S600000x1_S600000_n_0_0_1 (broadcastInDim S50000 ![] bcast_S_S50000 (constant S_ .f32 0x00000000#32)) (broadcastInDim S600000x1 ![0] bcast_S600000_S600000x1_0 dst) (broadcastInDim S600000 ![] bcast_S_S600000 (constant S_ .f32 0x3F800000#32))))))

/-- The message-passing layer before its activation: (x·Wself + b) + agg·Wneigh. -/
def sage (x agg : Nodes) (ws wn : Wt) (b : Bias) : Nodes :=
  addf (addf (Host.dotGeneral dot_S50000x128_S128x128_S50000x128_1_0_0_1_n_n none x ws) (broadcastInDim S50000x128 ![0, 1] bcast_S1x128_S50000x128_0_1 (broadcastInDim S1x128 ![1] bcast_S128_S1x128_1 b))) (Host.dotGeneral dot_S50000x128_S128x128_S50000x128_1_0_0_1_n_n none agg wn)

/-- max(x, 0), entry by entry. -/
def relu (x : Nodes) : Nodes :=
  maximumf x (broadcastInDim S50000x128 ![] bcast_S_S50000x128 (constant S_ .f32 0x00000000#32))

/-- A dense layer x·W + b. -/
def dense (x : Nodes) (w : Wt) (b : Bias) : Nodes :=
  addf (Host.dotGeneral dot_S50000x128_S128x128_S50000x128_1_0_0_1_n_n none x w) (broadcastInDim S50000x128 ![0, 1] bcast_S1x128_S50000x128_0_1 (broadcastInDim S1x128 ![1] bcast_S128_S1x128_1 b))

/-- The last dense layer, onto 64 columns. -/
def dense64 (x : Nodes) (w : Wt64) (b : Bias64) : Out :=
  addf (Host.dotGeneral dot_S50000x128_S128x64_S50000x64_1_0_0_1_n_n none x w) (broadcastInDim S50000x64 ![0, 1] bcast_S1x64_S50000x64_0_1 (broadcastInDim S1x64 ![1] bcast_S64_S1x64_1 b))

/-- The three dense layers after the message passing. -/
def mlp (x : Nodes) (w0 : Wt) (b0 : Bias) (w1 : Wt) (b1 : Bias) (w2 : Wt64) (b2 : Bias64) : Out :=
  dense64 (relu (dense (relu (dense x w0 b0)) w1 b1)) w2 b2

/-- Row g: the sum of the rows of the nodes of graph g, divided by max(1, number of them). -/
def pool (y : Out) (gid : Gids) : Pooled :=
  Host.divf (Host.scatterAdd scatter_S64x64_S50000x1_S50000x64_1_0_0_1 (broadcastInDim S64x64 ![] bcast_S_S64x64 (constant S_ .f32 0x00000000#32)) (broadcastInDim S50000x1 ![0] bcast_S50000_S50000x1_0 gid) y) (broadcastInDim S64x64 ![0, 1] bcast_S64x1_S64x64_0_1 (broadcastInDim S64x1 ![0] bcast_S64_S64x1_0 (maximumf (broadcastInDim S64 ![] bcast_S_S64 (id (constant S_ .f32 0x3F800000#32))) (Host.scatterAdd scatter_S64_S50000x1_S50000_n_0_0_1 (broadcastInDim S64 ![] bcast_S_S64 (constant S_ .f32 0x00000000#32)) (broadcastInDim S50000x1 ![0] bcast_S50000_S50000x1_0 gid) (broadcastInDim S50000 ![] bcast_S_S50000 (constant S_ .f32 0x3F800000#32))))))

/-- The features after the first, second and third message-passing layer. -/
def x1 (h : Nodes) (src dst : Edges) (ws0 wn0 : Wt) (bs0 : Bias) : Nodes :=
  relu (sage h (meanAgg h src dst) ws0 wn0 bs0)
def x2 (h : Nodes) (src dst : Edges) (ws0 wn0 : Wt) (bs0 : Bias) (ws1 wn1 : Wt) (bs1 : Bias) : Nodes :=
  relu (sage (x1 h src dst ws0 wn0 bs0) (meanAgg (x1 h src dst ws0 wn0 bs0) src dst) ws1 wn1 bs1)
def x3 (h : Nodes) (src dst : Edges) (ws0 wn0 : Wt) (bs0 : Bias) (ws1 wn1 : Wt) (bs1 : Bias) (ws2 wn2 : Wt) (bs2 : Bias) : Nodes :=
  sage (x2 h src dst ws0 wn0 bs0 ws1 wn1 bs1) (meanAgg (x2 h src dst ws0 wn0 bs0 ws1 wn1 bs1) src dst) ws2 wn2 bs2

/-- The whole network. -/
def net (h : Nodes) (src dst : Edges) (gid : Gids) (ws0 wn0 : Wt) (bs0 : Bias) (ws1 wn1 : Wt) (bs1 : Bias) (ws2 wn2 : Wt) (bs2 : Bias)
    (lw0 : Wt) (lb0 : Bias) (lw1 : Wt) (lb1 : Bias) (lw2 : Wt64) (lb2 : Bias64) : Pooled :=
  pool (mlp (x3 h src dst ws0 wn0 bs0 ws1 wn1 bs1 ws2 wn2 bs2) lw0 lb0 lw1 lb1 lw2 lb2) gid

set_option maxRecDepth 8192 in
/-- The reference run's result term is the network of the arguments. -/
theorem ref_is_net (m : (ℓ : Loc nD τ sig) → Buf (Elt Ideal) ℓ) (c : Dev nD) :
    Cert.ReferenceIdeal.Value.res_main_v98 (F := Ideal) m c
      = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  unfold Cert.ReferenceIdeal.Value.res_main_v98 net pool mlp dense64 dense relu x3 x2 x1 sage meanAgg srcIdx
  rfl

end Cert.Net

end
-- ==== Proof.KernelNamed.lean ====
/-
  The idealized kernel's run with its result named.

  Every weakly fair execution of the program terminates, and in the final state the result buffer holds what the fold
  of the program's segments leaves there — the contents after the last stretch of host operations, which follow the
  fourth launch — while every argument array is as launched.  It is the same launch of the same segments as the frame
  claim's, read at one more buffer at the end.
-/
import proofs.«127197_j29540785062522_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the fold's last contents, the arguments as launched. -/
theorem run : θ_run defs (onTc (τ := τ) (main (F := F))) ⟨m, fun _ => 0, ρ⟩ (fun r => ∀ c : Dev nD,
      r.2.mem ((c.tc : Thread nD τ).loc main_v74) = W17 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v74 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c),
       (h c _ (mem_uc main_arg14 (by decide))).trans (W17_main_arg14 m ρ c),
       (h c _ (mem_uc main_arg15 (by decide))).trans (W17_main_arg15 m ρ c),
       (h c _ (mem_uc main_arg16 (by decide))).trans (W17_main_arg16 m ρ c),
       (h c _ (mem_uc main_arg17 (by decide))).trans (W17_main_arg17 m ρ c),
       (h c _ (mem_uc main_arg18 (by decide))).trans (W17_main_arg18 m ρ c)⟩)

end Cert.KernelIdeal.Named

end
-- ==== Proof.WalkArgs.lean ====
/-
  The argument arrays along the run.

  No host operation and no launch of the idealized kernel's program writes an argument array, so at every boundary
  between the program's segments an argument's buffer still holds its launch contents.  Stated here for the
  boundaries and the arguments the value of the result is read through.
-/
import proofs.«127197_j29540785062522_1_alg».proof.Proof.Gen.KernelIdeal.Frame
import Idealize.ShloMosaic.PureOps.Ideal

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Before the first launch -/
theorem arg3_0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results <;> rfl
theorem arg3_1 : W3 m ρ c (Proc.devRef .tc main_arg1) = m ((c : Thread nD τ).loc main_arg1) := by
  show StableHlo.after hostOps0_2 (StableHlo.after hostOps0_1 (StableHlo.after hostOps0 (W0 m ρ c))) (Proc.devRef .tc main_arg1) = _
  after_results <;> rfl
theorem arg3_2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results <;> rfl
theorem arg3_3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results <;> rfl
theorem arg3_4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results <;> rfl
theorem arg3_5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results <;> rfl
theorem arg3_7 : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results <;> rfl
theorem arg3_8 : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  after_results <;> rfl
theorem arg3_9 : W3 m ρ c (Proc.devRef .tc main_arg9) = m ((c : Thread nD τ).loc main_arg9) := by
  show StableHlo.after hostOps0_2 (StableHlo.after hostOps0_1 (StableHlo.after hostOps0 (W0 m ρ c))) (Proc.devRef .tc main_arg9) = _
  after_results <;> rfl
theorem arg3_10 : W3 m ρ c (Proc.devRef .tc main_arg10) = m ((c : Thread nD τ).loc main_arg10) := by
  show StableHlo.after hostOps0_2 (StableHlo.after hostOps0_1 (StableHlo.after hostOps0 (W0 m ρ c))) (Proc.devRef .tc main_arg10) = _
  after_results <;> rfl
theorem arg3_11 : W3 m ρ c (Proc.devRef .tc main_arg11) = m ((c : Thread nD τ).loc main_arg11) := by
  show StableHlo.after hostOps0_2 (StableHlo.after hostOps0_1 (StableHlo.after hostOps0 (W0 m ρ c))) (Proc.devRef .tc main_arg11) = _
  after_results <;> rfl
theorem arg3_12 : W3 m ρ c (Proc.devRef .tc main_arg12) = m ((c : Thread nD τ).loc main_arg12) := by
  show StableHlo.after hostOps0_2 (StableHlo.after hostOps0_1 (StableHlo.after hostOps0 (W0 m ρ c))) (Proc.devRef .tc main_arg12) = _
  after_results <;> rfl
theorem arg3_13 : W3 m ρ c (Proc.devRef .tc main_arg13) = m ((c : Thread nD τ).loc main_arg13) := by
  show StableHlo.after hostOps0_2 (StableHlo.after hostOps0_1 (StableHlo.after hostOps0 (W0 m ρ c))) (Proc.devRef .tc main_arg13) = _
  after_results <;> rfl
theorem arg3_14 : W3 m ρ c (Proc.devRef .tc main_arg14) = m ((c : Thread nD τ).loc main_arg14) := by
  show StableHlo.after hostOps0_2 (StableHlo.after hostOps0_1 (StableHlo.after hostOps0 (W0 m ρ c))) (Proc.devRef .tc main_arg14) = _
  after_results <;> rfl
theorem arg3_15 : W3 m ρ c (Proc.devRef .tc main_arg15) = m ((c : Thread nD τ).loc main_arg15) := by
  show StableHlo.after hostOps0_2 (StableHlo.after hostOps0_1 (StableHlo.after hostOps0 (W0 m ρ c))) (Proc.devRef .tc main_arg15) = _
  after_results <;> rfl
theorem arg3_16 : W3 m ρ c (Proc.devRef .tc main_arg16) = m ((c : Thread nD τ).loc main_arg16) := by
  show StableHlo.after hostOps0_2 (StableHlo.after hostOps0_1 (StableHlo.after hostOps0 (W0 m ρ c))) (Proc.devRef .tc main_arg16) = _
  after_results <;> rfl
theorem arg3_17 : W3 m ρ c (Proc.devRef .tc main_arg17) = m ((c : Thread nD τ).loc main_arg17) := by
  show StableHlo.after hostOps0_2 (StableHlo.after hostOps0_1 (StableHlo.after hostOps0 (W0 m ρ c))) (Proc.devRef .tc main_arg17) = _
  after_results <;> rfl
theorem arg3_18 : W3 m ρ c (Proc.devRef .tc main_arg18) = m ((c : Thread nD τ).loc main_arg18) := by
  show StableHlo.after hostOps0_2 (StableHlo.after hostOps0_1 (StableHlo.after hostOps0 (W0 m ρ c))) (Proc.devRef .tc main_arg18) = _
  after_results <;> rfl

/-! ## After the first launch -/
theorem arg4_1 : W4 m ρ c (Proc.devRef .tc main_arg1) = m ((c : Thread nD τ).loc main_arg1) :=
  (W4_of_ne m ρ c main_arg1 (by decide)).trans (arg3_1 m ρ c)
theorem arg4_2 : W4 m ρ c (Proc.devRef .tc main_arg2) = m ((c : Thread nD τ).loc main_arg2) :=
  (W4_of_ne m ρ c main_arg2 (by decide)).trans (arg3_2 m ρ c)
theorem arg4_3 : W4 m ρ c (Proc.devRef .tc main_arg3) = m ((c : Thread nD τ).loc main_arg3) :=
  (W4_of_ne m ρ c main_arg3 (by decide)).trans (arg3_3 m ρ c)
theorem arg4_7 : W4 m ρ c (Proc.devRef .tc main_arg7) = m ((c : Thread nD τ).loc main_arg7) :=
  (W4_of_ne m ρ c main_arg7 (by decide)).trans (arg3_7 m ρ c)
theorem arg4_8 : W4 m ρ c (Proc.devRef .tc main_arg8) = m ((c : Thread nD τ).loc main_arg8) :=
  (W4_of_ne m ρ c main_arg8 (by decide)).trans (arg3_8 m ρ c)
theorem arg4_9 : W4 m ρ c (Proc.devRef .tc main_arg9) = m ((c : Thread nD τ).loc main_arg9) :=
  (W4_of_ne m ρ c main_arg9 (by decide)).trans (arg3_9 m ρ c)
theorem arg4_10 : W4 m ρ c (Proc.devRef .tc main_arg10) = m ((c : Thread nD τ).loc main_arg10) :=
  (W4_of_ne m ρ c main_arg10 (by decide)).trans (arg3_10 m ρ c)
theorem arg4_11 : W4 m ρ c (Proc.devRef .tc main_arg11) = m ((c : Thread nD τ).loc main_arg11) :=
  (W4_of_ne m ρ c main_arg11 (by decide)).trans (arg3_11 m ρ c)
theorem arg4_12 : W4 m ρ c (Proc.devRef .tc main_arg12) = m ((c : Thread nD τ).loc main_arg12) :=
  (W4_of_ne m ρ c main_arg12 (by decide)).trans (arg3_12 m ρ c)
theorem arg4_13 : W4 m ρ c (Proc.devRef .tc main_arg13) = m ((c : Thread nD τ).loc main_arg13) :=
  (W4_of_ne m ρ c main_arg13 (by decide)).trans (arg3_13 m ρ c)
theorem arg4_14 : W4 m ρ c (Proc.devRef .tc main_arg14) = m ((c : Thread nD τ).loc main_arg14) :=
  (W4_of_ne m ρ c main_arg14 (by decide)).trans (arg3_14 m ρ c)
theorem arg4_15 : W4 m ρ c (Proc.devRef .tc main_arg15) = m ((c : Thread nD τ).loc main_arg15) :=
  (W4_of_ne m ρ c main_arg15 (by decide)).trans (arg3_15 m ρ c)
theorem arg4_16 : W4 m ρ c (Proc.devRef .tc main_arg16) = m ((c : Thread nD τ).loc main_arg16) :=
  (W4_of_ne m ρ c main_arg16 (by decide)).trans (arg3_16 m ρ c)
theorem arg4_17 : W4 m ρ c (Proc.devRef .tc main_arg17) = m ((c : Thread nD τ).loc main_arg17) :=
  (W4_of_ne m ρ c main_arg17 (by decide)).trans (arg3_17 m ρ c)
theorem arg4_18 : W4 m ρ c (Proc.devRef .tc main_arg18) = m ((c : Thread nD τ).loc main_arg18) :=
  (W4_of_ne m ρ c main_arg18 (by decide)).trans (arg3_18 m ρ c)

/-! ## Before the second launch -/
theorem arg7_1 : W7 m ρ c (Proc.devRef .tc main_arg1) = m ((c : Thread nD τ).loc main_arg1) := by
  show StableHlo.after hostOps1_2 (StableHlo.after hostOps1_1 (StableHlo.after hostOps1 (W4 m ρ c))) (Proc.devRef .tc main_arg1) = _
  after_results <;> exact arg4_1 m ρ c
theorem arg7_2 : W7 m ρ c (Proc.devRef .tc main_arg2) = m ((c : Thread nD τ).loc main_arg2) := by
  show StableHlo.after hostOps1_2 (StableHlo.after hostOps1_1 (StableHlo.after hostOps1 (W4 m ρ c))) (Proc.devRef .tc main_arg2) = _
  after_results <;> exact arg4_2 m ρ c
theorem arg7_3 : W7 m ρ c (Proc.devRef .tc main_arg3) = m ((c : Thread nD τ).loc main_arg3) := by
  show StableHlo.after hostOps1_2 (StableHlo.after hostOps1_1 (StableHlo.after hostOps1 (W4 m ρ c))) (Proc.devRef .tc main_arg3) = _
  after_results <;> exact arg4_3 m ρ c
theorem arg7_7 : W7 m ρ c (Proc.devRef .tc main_arg7) = m ((c : Thread nD τ).loc main_arg7) := by
  show StableHlo.after hostOps1_2 (StableHlo.after hostOps1_1 (StableHlo.after hostOps1 (W4 m ρ c))) (Proc.devRef .tc main_arg7) = _
  after_results <;> exact arg4_7 m ρ c
theorem arg7_8 : W7 m ρ c (Proc.devRef .tc main_arg8) = m ((c : Thread nD τ).loc main_arg8) := by
  show StableHlo.after hostOps1_2 (StableHlo.after hostOps1_1 (StableHlo.after hostOps1 (W4 m ρ c))) (Proc.devRef .tc main_arg8) = _
  after_results <;> exact arg4_8 m ρ c
theorem arg7_10 : W7 m ρ c (Proc.devRef .tc main_arg10) = m ((c : Thread nD τ).loc main_arg10) := by
  show StableHlo.after hostOps1_2 (StableHlo.after hostOps1_1 (StableHlo.after hostOps1 (W4 m ρ c))) (Proc.devRef .tc main_arg10) = _
  after_results <;> exact arg4_10 m ρ c
theorem arg7_11 : W7 m ρ c (Proc.devRef .tc main_arg11) = m ((c : Thread nD τ).loc main_arg11) := by
  show StableHlo.after hostOps1_2 (StableHlo.after hostOps1_1 (StableHlo.after hostOps1 (W4 m ρ c))) (Proc.devRef .tc main_arg11) = _
  after_results <;> exact arg4_11 m ρ c
theorem arg7_12 : W7 m ρ c (Proc.devRef .tc main_arg12) = m ((c : Thread nD τ).loc main_arg12) := by
  show StableHlo.after hostOps1_2 (StableHlo.after hostOps1_1 (StableHlo.after hostOps1 (W4 m ρ c))) (Proc.devRef .tc main_arg12) = _
  after_results <;> exact arg4_12 m ρ c
theorem arg7_13 : W7 m ρ c (Proc.devRef .tc main_arg13) = m ((c : Thread nD τ).loc main_arg13) := by
  show StableHlo.after hostOps1_2 (StableHlo.after hostOps1_1 (StableHlo.after hostOps1 (W4 m ρ c))) (Proc.devRef .tc main_arg13) = _
  after_results <;> exact arg4_13 m ρ c
theorem arg7_14 : W7 m ρ c (Proc.devRef .tc main_arg14) = m ((c : Thread nD τ).loc main_arg14) := by
  show StableHlo.after hostOps1_2 (StableHlo.after hostOps1_1 (StableHlo.after hostOps1 (W4 m ρ c))) (Proc.devRef .tc main_arg14) = _
  after_results <;> exact arg4_14 m ρ c
theorem arg7_15 : W7 m ρ c (Proc.devRef .tc main_arg15) = m ((c : Thread nD τ).loc main_arg15) := by
  show StableHlo.after hostOps1_2 (StableHlo.after hostOps1_1 (StableHlo.after hostOps1 (W4 m ρ c))) (Proc.devRef .tc main_arg15) = _
  after_results <;> exact arg4_15 m ρ c
theorem arg7_16 : W7 m ρ c (Proc.devRef .tc main_arg16) = m ((c : Thread nD τ).loc main_arg16) := by
  show StableHlo.after hostOps1_2 (StableHlo.after hostOps1_1 (StableHlo.after hostOps1 (W4 m ρ c))) (Proc.devRef .tc main_arg16) = _
  after_results <;> exact arg4_16 m ρ c
theorem arg7_17 : W7 m ρ c (Proc.devRef .tc main_arg17) = m ((c : Thread nD τ).loc main_arg17) := by
  show StableHlo.after hostOps1_2 (StableHlo.after hostOps1_1 (StableHlo.after hostOps1 (W4 m ρ c))) (Proc.devRef .tc main_arg17) = _
  after_results <;> exact arg4_17 m ρ c
theorem arg7_18 : W7 m ρ c (Proc.devRef .tc main_arg18) = m ((c : Thread nD τ).loc main_arg18) := by
  show StableHlo.after hostOps1_2 (StableHlo.after hostOps1_1 (StableHlo.after hostOps1 (W4 m ρ c))) (Proc.devRef .tc main_arg18) = _
  after_results <;> exact arg4_18 m ρ c

/-! ## After the second launch -/
theorem arg8_1 : W8 m ρ c (Proc.devRef .tc main_arg1) = m ((c : Thread nD τ).loc main_arg1) :=
  (W8_of_ne m ρ c main_arg1 (by decide)).trans (arg7_1 m ρ c)
theorem arg8_2 : W8 m ρ c (Proc.devRef .tc main_arg2) = m ((c : Thread nD τ).loc main_arg2) :=
  (W8_of_ne m ρ c main_arg2 (by decide)).trans (arg7_2 m ρ c)
theorem arg8_3 : W8 m ρ c (Proc.devRef .tc main_arg3) = m ((c : Thread nD τ).loc main_arg3) :=
  (W8_of_ne m ρ c main_arg3 (by decide)).trans (arg7_3 m ρ c)
theorem arg8_10 : W8 m ρ c (Proc.devRef .tc main_arg10) = m ((c : Thread nD τ).loc main_arg10) :=
  (W8_of_ne m ρ c main_arg10 (by decide)).trans (arg7_10 m ρ c)
theorem arg8_11 : W8 m ρ c (Proc.devRef .tc main_arg11) = m ((c : Thread nD τ).loc main_arg11) :=
  (W8_of_ne m ρ c main_arg11 (by decide)).trans (arg7_11 m ρ c)
theorem arg8_12 : W8 m ρ c (Proc.devRef .tc main_arg12) = m ((c : Thread nD τ).loc main_arg12) :=
  (W8_of_ne m ρ c main_arg12 (by decide)).trans (arg7_12 m ρ c)
theorem arg8_13 : W8 m ρ c (Proc.devRef .tc main_arg13) = m ((c : Thread nD τ).loc main_arg13) :=
  (W8_of_ne m ρ c main_arg13 (by decide)).trans (arg7_13 m ρ c)
theorem arg8_14 : W8 m ρ c (Proc.devRef .tc main_arg14) = m ((c : Thread nD τ).loc main_arg14) :=
  (W8_of_ne m ρ c main_arg14 (by decide)).trans (arg7_14 m ρ c)
theorem arg8_15 : W8 m ρ c (Proc.devRef .tc main_arg15) = m ((c : Thread nD τ).loc main_arg15) :=
  (W8_of_ne m ρ c main_arg15 (by decide)).trans (arg7_15 m ρ c)
theorem arg8_16 : W8 m ρ c (Proc.devRef .tc main_arg16) = m ((c : Thread nD τ).loc main_arg16) :=
  (W8_of_ne m ρ c main_arg16 (by decide)).trans (arg7_16 m ρ c)
theorem arg8_17 : W8 m ρ c (Proc.devRef .tc main_arg17) = m ((c : Thread nD τ).loc main_arg17) :=
  (W8_of_ne m ρ c main_arg17 (by decide)).trans (arg7_17 m ρ c)
theorem arg8_18 : W8 m ρ c (Proc.devRef .tc main_arg18) = m ((c : Thread nD τ).loc main_arg18) :=
  (W8_of_ne m ρ c main_arg18 (by decide)).trans (arg7_18 m ρ c)

/-! ## Before the third launch -/
theorem arg11_3 : W11 m ρ c (Proc.devRef .tc main_arg3) = m ((c : Thread nD τ).loc main_arg3) := by
  show StableHlo.after hostOps2_2 (StableHlo.after hostOps2_1 (StableHlo.after hostOps2 (W8 m ρ c))) (Proc.devRef .tc main_arg3) = _
  after_results <;> exact arg8_3 m ρ c
theorem arg11_10 : W11 m ρ c (Proc.devRef .tc main_arg10) = m ((c : Thread nD τ).loc main_arg10) := by
  show StableHlo.after hostOps2_2 (StableHlo.after hostOps2_1 (StableHlo.after hostOps2 (W8 m ρ c))) (Proc.devRef .tc main_arg10) = _
  after_results <;> exact arg8_10 m ρ c
theorem arg11_11 : W11 m ρ c (Proc.devRef .tc main_arg11) = m ((c : Thread nD τ).loc main_arg11) := by
  show StableHlo.after hostOps2_2 (StableHlo.after hostOps2_1 (StableHlo.after hostOps2 (W8 m ρ c))) (Proc.devRef .tc main_arg11) = _
  after_results <;> exact arg8_11 m ρ c
theorem arg11_13 : W11 m ρ c (Proc.devRef .tc main_arg13) = m ((c : Thread nD τ).loc main_arg13) := by
  show StableHlo.after hostOps2_2 (StableHlo.after hostOps2_1 (StableHlo.after hostOps2 (W8 m ρ c))) (Proc.devRef .tc main_arg13) = _
  after_results <;> exact arg8_13 m ρ c
theorem arg11_14 : W11 m ρ c (Proc.devRef .tc main_arg14) = m ((c : Thread nD τ).loc main_arg14) := by
  show StableHlo.after hostOps2_2 (StableHlo.after hostOps2_1 (StableHlo.after hostOps2 (W8 m ρ c))) (Proc.devRef .tc main_arg14) = _
  after_results <;> exact arg8_14 m ρ c
theorem arg11_15 : W11 m ρ c (Proc.devRef .tc main_arg15) = m ((c : Thread nD τ).loc main_arg15) := by
  show StableHlo.after hostOps2_2 (StableHlo.after hostOps2_1 (StableHlo.after hostOps2 (W8 m ρ c))) (Proc.devRef .tc main_arg15) = _
  after_results <;> exact arg8_15 m ρ c
theorem arg11_16 : W11 m ρ c (Proc.devRef .tc main_arg16) = m ((c : Thread nD τ).loc main_arg16) := by
  show StableHlo.after hostOps2_2 (StableHlo.after hostOps2_1 (StableHlo.after hostOps2 (W8 m ρ c))) (Proc.devRef .tc main_arg16) = _
  after_results <;> exact arg8_16 m ρ c
theorem arg11_17 : W11 m ρ c (Proc.devRef .tc main_arg17) = m ((c : Thread nD τ).loc main_arg17) := by
  show StableHlo.after hostOps2_2 (StableHlo.after hostOps2_1 (StableHlo.after hostOps2 (W8 m ρ c))) (Proc.devRef .tc main_arg17) = _
  after_results <;> exact arg8_17 m ρ c
theorem arg11_18 : W11 m ρ c (Proc.devRef .tc main_arg18) = m ((c : Thread nD τ).loc main_arg18) := by
  show StableHlo.after hostOps2_2 (StableHlo.after hostOps2_1 (StableHlo.after hostOps2 (W8 m ρ c))) (Proc.devRef .tc main_arg18) = _
  after_results <;> exact arg8_18 m ρ c

/-! ## After the third launch -/
theorem arg12_3 : W12 m ρ c (Proc.devRef .tc main_arg3) = m ((c : Thread nD τ).loc main_arg3) :=
  (W12_of_ne m ρ c main_arg3 (by decide)).trans (arg11_3 m ρ c)
theorem arg12_13 : W12 m ρ c (Proc.devRef .tc main_arg13) = m ((c : Thread nD τ).loc main_arg13) :=
  (W12_of_ne m ρ c main_arg13 (by decide)).trans (arg11_13 m ρ c)
theorem arg12_14 : W12 m ρ c (Proc.devRef .tc main_arg14) = m ((c : Thread nD τ).loc main_arg14) :=
  (W12_of_ne m ρ c main_arg14 (by decide)).trans (arg11_14 m ρ c)
theorem arg12_15 : W12 m ρ c (Proc.devRef .tc main_arg15) = m ((c : Thread nD τ).loc main_arg15) :=
  (W12_of_ne m ρ c main_arg15 (by decide)).trans (arg11_15 m ρ c)
theorem arg12_16 : W12 m ρ c (Proc.devRef .tc main_arg16) = m ((c : Thread nD τ).loc main_arg16) :=
  (W12_of_ne m ρ c main_arg16 (by decide)).trans (arg11_16 m ρ c)
theorem arg12_17 : W12 m ρ c (Proc.devRef .tc main_arg17) = m ((c : Thread nD τ).loc main_arg17) :=
  (W12_of_ne m ρ c main_arg17 (by decide)).trans (arg11_17 m ρ c)
theorem arg12_18 : W12 m ρ c (Proc.devRef .tc main_arg18) = m ((c : Thread nD τ).loc main_arg18) :=
  (W12_of_ne m ρ c main_arg18 (by decide)).trans (arg11_18 m ρ c)

/-! ## Before the fourth launch -/
theorem arg13_3 : W13 m ρ c (Proc.devRef .tc main_arg3) = m ((c : Thread nD τ).loc main_arg3) := by
  show StableHlo.after hostOps3 (W12 m ρ c) (Proc.devRef .tc main_arg3) = _
  after_results <;> exact arg12_3 m ρ c
theorem arg13_13 : W13 m ρ c (Proc.devRef .tc main_arg13) = m ((c : Thread nD τ).loc main_arg13) := by
  show StableHlo.after hostOps3 (W12 m ρ c) (Proc.devRef .tc main_arg13) = _
  after_results <;> exact arg12_13 m ρ c
theorem arg13_15 : W13 m ρ c (Proc.devRef .tc main_arg15) = m ((c : Thread nD τ).loc main_arg15) := by
  show StableHlo.after hostOps3 (W12 m ρ c) (Proc.devRef .tc main_arg15) = _
  after_results <;> exact arg12_15 m ρ c
theorem arg13_17 : W13 m ρ c (Proc.devRef .tc main_arg17) = m ((c : Thread nD τ).loc main_arg17) := by
  show StableHlo.after hostOps3 (W12 m ρ c) (Proc.devRef .tc main_arg17) = _
  after_results <;> exact arg12_17 m ρ c

/-! ## After the fourth launch -/
theorem arg14_3 : W14 m ρ c (Proc.devRef .tc main_arg3) = m ((c : Thread nD τ).loc main_arg3) :=
  (W14_of_ne m ρ c main_arg3 (by decide)).trans (arg13_3 m ρ c)

end Cert.KernelIdeal.Walk

end
-- ==== Proof.Stretch.lean ====
/-
  The stretches of host operations of the idealized kernel's program, one at a time.

  Each stretch is read from ANY contents of the device's buffers: what it leaves in the buffers the next segment reads, as
  the host operations' functions of what it found.  Before each message-passing launch: the rows gathered at the edges'
  sources and added at their destinations, the number of edges into each node, that number clipped below by one, the
  quotient, and the layer's bias vector reshaped to one row.  Before the dense launch: three bias vectors reshaped.  After
  it: the rows added by graph, the nodes counted by graph, the count clipped below by one, the quotient.
-/
import proofs.«127197_j29540785062522_1_alg».proof.Proof.Gen.KernelIdeal.Launch
import Idealize.ShloMosaic.PureOps.Ideal
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

/-! ## The host functions, named -/

/-- The rows x[src e] added into row dst e, over all edges e (a negative source index wrapped once by the number of nodes). -/
def sumRows (x : FVec Ideal S50000x128 .f32) (src dst : (⟨S600000, .i32⟩ : BufTy).Contents (Elt Ideal)) : FVec Ideal S50000x128 .f32 :=
  Host.scatterAdd scatter_S50000x128_S600000x1_S600000x128_1_0_0_1 (broadcastInDim S50000x128 ![] bcast_S_S50000x128 (constant S_ .f32 0x00000000#32)) (broadcastInDim S600000x1 ![0] bcast_S600000_S600000x1_0 dst) (Host.gather gather_S50000x128_S600000x1_S600000x128_1_0_n_n_0_1_1128 x (broadcastInDim S600000x1 ![0] bcast_S600000_S600000x1_0 (select (cmpi .slt src (broadcastInDim S600000 ![] bcast_S_S600000 (constantI S_ 32 0#32))) (addi src (broadcastInDim S600000 ![] bcast_S_S600000 (constantI S_ 32 50000#32))) src)))

/-- The number of edges into each node. -/
def count (dst : (⟨S600000, .i32⟩ : BufTy).Contents (Elt Ideal)) : FVec Ideal S50000 .f32 :=
  Host.scatterAdd scatter_S50000_S600000x1_S600000_n_0_0_1 (broadcastInDim S50000 ![] bcast_S_S50000 (constant S_ .f32 0x00000000#32)) (broadcastInDim S600000x1 ![0] bcast_S600000_S600000x1_0 dst) (broadcastInDim S600000 ![] bcast_S_S600000 (constant S_ .f32 0x3F800000#32))

/-- A count clipped below by a scalar. -/
def clipped (lo : FVec Ideal S_ .f32) (n : FVec Ideal S50000 .f32) : FVec Ideal S50000 .f32 :=
  maximumf (broadcastInDim S50000 ![] bcast_S_S50000 (id lo)) n

/-- Row v of s divided by d[v]. -/
def mean (s : FVec Ideal S50000x128 .f32) (d : FVec Ideal S50000 .f32) : FVec Ideal S50000x128 .f32 :=
  Host.divf s (broadcastInDim S50000x128 ![0, 1] bcast_S50000x1_S50000x128_0_1 (broadcastInDim S50000x1 ![0] bcast_S50000_S50000x1_0 d))

/-- The rows of y added into row gid[v], over all nodes v. -/
def poolSum (y : FVec Ideal S50000x64 .f32) (gid : (⟨S50000, .i32⟩ : BufTy).Contents (Elt Ideal)) : FVec Ideal S64x64 .f32 :=
  Host.scatterAdd scatter_S64x64_S50000x1_S50000x64_1_0_0_1 (broadcastInDim S64x64 ![] bcast_S_S64x64 (constant S_ .f32 0x00000000#32)) (broadcastInDim S50000x1 ![0] bcast_S50000_S50000x1_0 gid) y

/-- The number of nodes of each graph. -/
def poolCount (gid : (⟨S50000, .i32⟩ : BufTy).Contents (Elt Ideal)) : FVec Ideal S64 .f32 :=
  Host.scatterAdd scatter_S64_S50000x1_S50000_n_0_0_1 (broadcastInDim S64 ![] bcast_S_S64 (constant S_ .f32 0x00000000#32)) (broadcastInDim S50000x1 ![0] bcast_S50000_S50000x1_0 gid) (broadcastInDim S50000 ![] bcast_S_S50000 (constant S_ .f32 0x3F800000#32))

/-- A per-graph count clipped below by a scalar. -/
def poolClipped (lo : FVec Ideal S_ .f32) (n : FVec Ideal S64 .f32) : FVec Ideal S64 .f32 :=
  maximumf (broadcastInDim S64 ![] bcast_S_S64 (id lo)) n

/-- Row g of s divided by d[g]. -/
def poolMean (s : FVec Ideal S64x64 .f32) (d : FVec Ideal S64 .f32) : FVec Ideal S64x64 .f32 :=
  Host.divf s (broadcastInDim S64x64 ![0, 1] bcast_S64x1_S64x64_0_1 (broadcastInDim S64x1 ![0] bcast_S64_S64x1_0 d))

/-! ## The host operations before launch 0 -/

set_option maxHeartbeats 2000000 in
theorem sumRows0 (U : Valuation τ sig (Elt Ideal)) :
    StableHlo.after hostOps0 U (Proc.devRef .tc main_v9) = sumRows (U (Proc.devRef .tc main_arg0)) (U (Proc.devRef .tc main_arg1)) (U (Proc.devRef .tc main_arg2)) := by
  after_results <;> rfl

set_option maxHeartbeats 2000000 in
theorem count0 (U : Valuation τ sig (Elt Ideal)) :
    StableHlo.after hostOps0 U (Proc.devRef .tc main_v13) = count (U (Proc.devRef .tc main_arg2)) := by
  after_results <;> rfl

theorem one0 (U : Valuation τ sig (Elt Ideal)) :
    StableHlo.after hostOps0 U (Proc.devRef .tc main_cst_3) = constant (F := Ideal) S_ .f32 0x3F800000#32 := by
  after_results <;> rfl

theorem clip0 (U : Valuation τ sig (Elt Ideal)) :
    StableHlo.after hostOps0_1 U (Proc.devRef .tc main_v14) = clipped (U (Proc.devRef .tc main_cst_3)) (U (Proc.devRef .tc main_v13)) := by
  after_results <;> rfl

theorem clipKeeps0 (U : Valuation τ sig (Elt Ideal)) :
    StableHlo.after hostOps0_1 U (Proc.devRef .tc main_v9) = U (Proc.devRef .tc main_v9) := by
  after_results <;> rfl

theorem mean0 (U : Valuation τ sig (Elt Ideal)) :
    StableHlo.after hostOps0_2 U (Proc.devRef .tc main_v17) = mean (U (Proc.devRef .tc main_v9)) (U (Proc.devRef .tc main_v14)) := by
  after_results <;> rfl

theorem biasRow0 (U : Valuation τ sig (Elt Ideal)) :
    StableHlo.after hostOps0_2 U (Proc.devRef .tc main_v18) = shapeCast S1x128 (U (Proc.devRef .tc main_arg6) : FVec Ideal S128 .f32) shapeCasts_S128_S1x128 := by
  after_results <;> rfl

/-! ## The host operations before launch 1 -/

set_option maxHeartbeats 2000000 in
theorem sumRows1 (U : Valuation τ sig (Elt Ideal)) :
    StableHlo.after hostOps1 U (Proc.devRef .tc main_v29) = sumRows (U (Proc.devRef .tc main_v19)) (U (Proc.devRef .tc main_arg1)) (U (Proc.devRef .tc main_arg2)) := by
  after_results <;> rfl

set_option maxHeartbeats 2000000 in
theorem count1 (U : Valuation τ sig (Elt Ideal)) :
    StableHlo.after hostOps1 U (Proc.devRef .tc main_v33) = count (U (Proc.devRef .tc main_arg2)) := by
  after_results <;> rfl

theorem one1 (U : Valuation τ sig (Elt Ideal)) :
    StableHlo.after hostOps1 U (Proc.devRef .tc main_cst_9) = constant (F := Ideal) S_ .f32 0x3F800000#32 := by
  after_results <;> rfl

theorem clip1 (U : Valuation τ sig (Elt Ideal)) :
    StableHlo.after hostOps1_1 U (Proc.devRef .tc main_v34) = clipped (U (Proc.devRef .tc main_cst_9)) (U (Proc.devRef .tc main_v33)) := by
  after_results <;> rfl

theorem clipKeeps1 (U : Valuation τ sig (Elt Ideal)) :
    StableHlo.after hostOps1_1 U (Proc.devRef .tc main_v29) = U (Proc.devRef .tc main_v29) := by
  after_results <;> rfl

theorem mean1 (U : Valuation τ sig (Elt Ideal)) :
    StableHlo.after hostOps1_2 U (Proc.devRef .tc main_v37) = mean (U (Proc.devRef .tc main_v29)) (U (Proc.devRef .tc main_v34)) := by
  after_results <;> rfl

theorem biasRow1 (U : Valuation τ sig (Elt Ideal)) :
    StableHlo.after hostOps1_2 U (Proc.devRef .tc main_v38) = shapeCast S1x128 (U (Proc.devRef .tc main_arg9) : FVec Ideal S128 .f32) shapeCasts_S128_S1x128 := by
  after_results <;> rfl

/-! ## The host operations before launch 2 -/

set_option maxHeartbeats 2000000 in
theorem sumRows2 (U : Valuation τ sig (Elt Ideal)) :
    StableHlo.after hostOps2 U (Proc.devRef .tc main_v49) = sumRows (U (Proc.devRef .tc main_v39)) (U (Proc.devRef .tc main_arg1)) (U (Proc.devRef .tc main_arg2)) := by
  after_results <;> rfl

set_option maxHeartbeats 2000000 in
theorem count2 (U : Valuation τ sig (Elt Ideal)) :
    StableHlo.after hostOps2 U (Proc.devRef .tc main_v53) = count (U (Proc.devRef .tc main_arg2)) := by
  after_results <;> rfl

theorem one2 (U : Valuation τ sig (Elt Ideal)) :
    StableHlo.after hostOps2 U (Proc.devRef .tc main_cst_15) = constant (F := Ideal) S_ .f32 0x3F800000#32 := by
  after_results <;> rfl

theorem clip2 (U : Valuation τ sig (Elt Ideal)) :
    StableHlo.after hostOps2_1 U (Proc.devRef .tc main_v54) = clipped (U (Proc.devRef .tc main_cst_15)) (U (Proc.devRef .tc main_v53)) := by
  after_results <;> rfl

theorem clipKeeps2 (U : Valuation τ sig (Elt Ideal)) :
    StableHlo.after hostOps2_1 U (Proc.devRef .tc main_v49) = U (Proc.devRef .tc main_v49) := by
  after_results <;> rfl

theorem mean2 (U : Valuation τ sig (Elt Ideal)) :
    StableHlo.after hostOps2_2 U (Proc.devRef .tc main_v57) = mean (U (Proc.devRef .tc main_v49)) (U (Proc.devRef .tc main_v54)) := by
  after_results <;> rfl

theorem biasRow2 (U : Valuation τ sig (Elt Ideal)) :
    StableHlo.after hostOps2_2 U (Proc.devRef .tc main_v58) = shapeCast S1x128 (U (Proc.devRef .tc main_arg12) : FVec Ideal S128 .f32) shapeCasts_S128_S1x128 := by
  after_results <;> rfl

/-! ## The host operations before the dense launch -/

theorem biasRowL0 (U : Valuation τ sig (Elt Ideal)) :
    StableHlo.after hostOps3 U (Proc.devRef .tc main_v60) = shapeCast S1x128 (U (Proc.devRef .tc main_arg14) : FVec Ideal S128 .f32) shapeCasts_S128_S1x128 := by
  after_results <;> rfl

theorem biasRowL1 (U : Valuation τ sig (Elt Ideal)) :
    StableHlo.after hostOps3 U (Proc.devRef .tc main_v61) = shapeCast S1x128 (U (Proc.devRef .tc main_arg16) : FVec Ideal S128 .f32) shapeCasts_S128_S1x128 := by
  after_results <;> rfl

theorem biasRowL2 (U : Valuation τ sig (Elt Ideal)) :
    StableHlo.after hostOps3 U (Proc.devRef .tc main_v62) = shapeCast S1x64 (U (Proc.devRef .tc main_arg18) : FVec Ideal S64 .f32) shapeCasts_S64_S1x64 := by
  after_results <;> rfl

/-! ## The host operations after the dense launch -/

set_option maxHeartbeats 2000000 in
theorem poolSum4 (U : Valuation τ sig (Elt Ideal)) :
    StableHlo.after hostOps4 U (Proc.devRef .tc main_v66) = poolSum (U (Proc.devRef .tc main_v63)) (U (Proc.devRef .tc main_arg3)) := by
  after_results <;> rfl

set_option maxHeartbeats 2000000 in
theorem poolCount4 (U : Valuation τ sig (Elt Ideal)) :
    StableHlo.after hostOps4 U (Proc.devRef .tc main_v70) = poolCount (U (Proc.devRef .tc main_arg3)) := by
  after_results <;> rfl

theorem poolOne4 (U : Valuation τ sig (Elt Ideal)) :
    StableHlo.after hostOps4 U (Proc.devRef .tc main_cst_19) = constant (F := Ideal) S_ .f32 0x3F800000#32 := by
  after_results <;> rfl

theorem poolClip4 (U : Valuation τ sig (Elt Ideal)) :
    StableHlo.after hostOps4_1 U (Proc.devRef .tc main_v71) = poolClipped (U (Proc.devRef .tc main_cst_19)) (U (Proc.devRef .tc main_v70)) := by
  after_results <;> rfl

theorem poolClipKeeps4 (U : Valuation τ sig (Elt Ideal)) :
    StableHlo.after hostOps4_1 U (Proc.devRef .tc main_v66) = U (Proc.devRef .tc main_v66) := by
  after_results <;> rfl

theorem poolMean4 (U : Valuation τ sig (Elt Ideal)) :
    StableHlo.after hostOps4_2 U (Proc.devRef .tc main_v74) = poolMean (U (Proc.devRef .tc main_v66)) (U (Proc.devRef .tc main_v71)) := by
  after_results <;> rfl

end Cert.KernelIdeal.Stretch

end
-- ==== Proof.LibDotAt.lean ====
/-
  A matrix product read at one entry.

  For dimension numbers that contract the second axis of an M × K left operand with the first axis of a K × N right
  operand, with no batch axis, both the vector unit's matmul into a zero accumulator and the host's dot_general are, at
  the ideal values and at the output entry (p, q), the plain sum  Σ_{k < K} l[p,k] · r[k,q].  The four hypotheses say
  where the dimension numbers send an output index and a contraction index; for a printed record each is one line
  (unfold the operand index and decide which axes are batch, kept or contracted). Any extents.
-/
import Idealize.ShloMosaic.PureOps.Ideal.Laws
import Idealize.ShloMosaic.Lib.ValueIdx

noncomputable section

open scoped BigOperators

namespace Cert.LibDotAt

open Idealize.ShloMosaic Idealize.ShloMosaic.ValueIdx

variable {M K N : Nat} {φ₁ φ₂ : FTy}

/-- The operand indices of a plain M×K by K×N product, once the contraction index is the coordinate `k`. -/
theorem operand_idx (D : DotDims ⟨2, ![M, K]⟩ ⟨2, ![K, N]⟩ ⟨2, ![M, N]⟩) (hr : D.contr.rank = 1)
    (hs : D.contr.size ⟨0, by omega⟩ = K)
    (hl0 : ∀ (j : (⟨2, ![M, N]⟩ : Shape).Idx) (c : D.contr.Idx), (D.lhsIdx j c 0).val = (j 0).val)
    (hl1 : ∀ (j : (⟨2, ![M, N]⟩ : Shape).Idx) (c : D.contr.Idx), (D.lhsIdx j c 1).val = (c ⟨0, by omega⟩).val)
    (hr0 : ∀ (j : (⟨2, ![M, N]⟩ : Shape).Idx) (c : D.contr.Idx), (D.rhsIdx j c 0).val = (c ⟨0, by omega⟩).val)
    (hr1 : ∀ (j : (⟨2, ![M, N]⟩ : Shape).Idx) (c : D.contr.Idx), (D.rhsIdx j c 1).val = (j 1).val)
    (p : Fin M) (q : Fin N) (k : Fin K) :
    D.lhsIdx (ix2 p q) ((contrEquiv1 D K hr hs).symm k) = ix2 p k
      ∧ D.rhsIdx (ix2 p q) ((contrEquiv1 D K hr hs).symm k) = ix2 k q := by
  have hk := contrEquiv1_symm_val D K hr hs k
  constructor
  · funext a; apply Fin.ext
    match a with
    | ⟨0, _⟩ => exact hl0 _ _
    | ⟨1, _⟩ => exact (hl1 _ _).trans hk
  · funext a; apply Fin.ext
    match a with
    | ⟨0, _⟩ => exact (hr0 _ _).trans hk
    | ⟨1, _⟩ => exact hr1 _ _

/-- The vector unit's matmul into the zero accumulator, at entry (p, q). -/
theorem matmul_zero_ix2 (D : DotDims ⟨2, ![M, K]⟩ ⟨2, ![K, N]⟩ ⟨2, ![M, N]⟩) (hr : D.contr.rank = 1)
    (hs : D.contr.size ⟨0, by omega⟩ = K)
    (hl0 : ∀ (j : (⟨2, ![M, N]⟩ : Shape).Idx) (c : D.contr.Idx), (D.lhsIdx j c 0).val = (j 0).val)
    (hl1 : ∀ (j : (⟨2, ![M, N]⟩ : Shape).Idx) (c : D.contr.Idx), (D.lhsIdx j c 1).val = (c ⟨0, by omega⟩).val)
    (hr0 : ∀ (j : (⟨2, ![M, N]⟩ : Shape).Idx) (c : D.contr.Idx), (D.rhsIdx j c 0).val = (c ⟨0, by omega⟩).val)
    (hr1 : ∀ (j : (⟨2, ![M, N]⟩ : Shape).Idx) (c : D.contr.Idx), (D.rhsIdx j c 1).val = (j 1).val)
    (prec : Option ContractPrecision) (l : FVec Ideal ⟨2, ![M, K]⟩ φ₁) (r : FVec Ideal ⟨2, ![K, N]⟩ φ₂)
    (p : Fin M) (q : Fin N) :
    FloatOps.matmul D prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p q k
  rw [el, er]

/-- The host's dot_general, at entry (p, q): the same sum, whatever the schedule. -/
theorem dotGeneral_ix2 (D : DotDims ⟨2, ![M, K]⟩ ⟨2, ![K, N]⟩ ⟨2, ![M, N]⟩) (hr : D.contr.rank = 1)
    (hs : D.contr.size ⟨0, by omega⟩ = K)
    (hl0 : ∀ (j : (⟨2, ![M, N]⟩ : Shape).Idx) (c : D.contr.Idx), (D.lhsIdx j c 0).val = (j 0).val)
    (hl1 : ∀ (j : (⟨2, ![M, N]⟩ : Shape).Idx) (c : D.contr.Idx), (D.lhsIdx j c 1).val = (c ⟨0, by omega⟩).val)
    (hr0 : ∀ (j : (⟨2, ![M, N]⟩ : Shape).Idx) (c : D.contr.Idx), (D.rhsIdx j c 0).val = (c ⟨0, by omega⟩).val)
    (hr1 : ∀ (j : (⟨2, ![M, N]⟩ : Shape).Idx) (c : D.contr.Idx), (D.rhsIdx j c 1).val = (j 1).val)
    (prec : Option ContractPrecision) (sched : HostSchedule) (l : FVec Ideal ⟨2, ![M, K]⟩ φ₁) (r : FVec Ideal ⟨2, ![K, N]⟩ φ₂)
    (p : Fin M) (q : Fin N) :
    FloatOps.dotGeneral D prec sched l r (ix2 p q) = ∑ k : Fin K, l (ix2 p k) * r (ix2 k q) := by
  rw [Ideal.dotGeneral_apply, ← Equiv.sum_comp (contrEquiv1 D K hr hs).symm]
  refine Finset.sum_congr rfl fun k _ => ?_
  obtain ⟨el, er⟩ := operand_idx D hr hs hl0 hl1 hr0 hr1 p q k
  rw [el, er]

end Cert.LibDotAt

end
-- ==== Proof.LibRowRel.lean ====
/-
  Arrays related row by row.

  Two matrices x : [M, N] and y : [M', N] are related along a map ρ of rows when row p of x is row ρ p of y,
  entry by entry, as extended reals.  Every operation that treats the rows of a matrix separately preserves the
  relation: a slice of columns, a concatenation of two or of six pieces along the columns, a pointwise sum, product, difference, maximum or
  minimum, a pointwise function, a change of float format (the identity on extended reals), the addition of one bias
  row to every row, and a splat constant.  The logistic function of the vector unit is related to the quotient
  1 / (1 + exp (−y)) the host computes, because at the ideal values it is that quotient by definition.  Any extents.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.LibRowRel

open Idealize.ShloMosaic Idealize.ShloMosaic.ValueIdx

variable {M M' : Nat}

/-- Row p of x is row ρ p of y. The left matrix may be in any float format; the right one is in f32 (a host array). -/
def Rel (ρ : Fin M → Fin M') {N : Nat} {φ : FTy} (x : FVec Ideal ⟨2, ![M, N]⟩ φ) (y : FVec Ideal ⟨2, ![M', N]⟩ .f32) : Prop :=
  ∀ (p : Fin M) (j : Fin N), (x (ix2 p j) : EReal) = y (ix2 (ρ p) j)

variable {ρ : Fin M → Fin M'}

/-- Columns o … o + n − 1 of related matrices are related. -/
theorem Rel.slice {N n : Nat} {φ : FTy} {x : FVec Ideal ⟨2, ![M, N]⟩ φ} {y : FVec Ideal ⟨2, ![M', N]⟩ .f32} (h : Rel ρ x y) (o : Nat)
    (hx : (⟨2, ![M, N]⟩ : Shape).Slices ![0, o] ⟨2, ![M, n]⟩) (hy : (⟨2, ![M', N]⟩ : Shape).Slices ![0, o] ⟨2, ![M', n]⟩) :
    Rel ρ (φ := φ) (extractStridedSlice ⟨2, ![M, n]⟩ ![0, o] x hx) (extractStridedSlice ⟨2, ![M', n]⟩ ![0, o] y hy) := fun p j => by
  rw [slice2_axis1_eq o x hx p j, slice2_axis1_eq o y hy (ρ p) j]
  exact h p _

/-- Two related pairs laid side by side are related. -/
theorem Rel.concat2 {a b c : Nat} {φ : FTy} {x₁ : FVec Ideal ⟨2, ![M, a]⟩ φ} {x₂ : FVec Ideal ⟨2, ![M, b]⟩ φ}
    {y₁ : FVec Ideal ⟨2, ![M', a]⟩ .f32} {y₂ : FVec Ideal ⟨2, ![M', b]⟩ .f32} (h₁ : Rel ρ x₁ y₁) (h₂ : Rel ρ x₂ y₂)
    (hx : Shape.Concatenates [⟨2, ![M, a]⟩, ⟨2, ![M, b]⟩] ⟨2, ![M, c]⟩ 1)
    (hy : Shape.Concatenates [⟨2, ![M', a]⟩, ⟨2, ![M', b]⟩] ⟨2, ![M', c]⟩ 1) :
    Rel ρ (φ := φ) (concatenate ⟨2, ![M, c]⟩ 1 [⟨⟨2, ![M, a]⟩, x₁⟩, ⟨⟨2, ![M, b]⟩, x₂⟩] hx)
      (concatenate ⟨2, ![M', c]⟩ 1 [⟨⟨2, ![M', a]⟩, y₁⟩, ⟨⟨2, ![M', b]⟩, y₂⟩] hy) := fun p j => by
  by_cases hj : j.val < a
  · rw [concatenate_pair_apply_left 1 x₁ x₂ hx (ix2 p j) rfl (ix2 p ⟨j.val, hj⟩)
          (fun d => by match d with | ⟨0, _⟩ => rfl | ⟨1, _⟩ => rfl),
        concatenate_pair_apply_left 1 y₁ y₂ hy (ix2 (ρ p) j) rfl (ix2 (ρ p) ⟨j.val, hj⟩)
          (fun d => by match d with | ⟨0, _⟩ => rfl | ⟨1, _⟩ => rfl)]
    exact h₁ p _
  · have hc : a + (b + 0) = c := hx.2.2
    have hj' : j.val - a < b := by have := j.isLt; omega
    rw [concatenate_pair_apply_right 1 x₁ x₂ hx (ix2 p j) rfl rfl (ix2 p ⟨j.val - a, hj'⟩)
          (fun d hd => by match d with | ⟨0, _⟩ => rfl | ⟨1, _⟩ => exact absurd rfl hd)
          (by show j.val - a + a = j.val; omega),
        concatenate_pair_apply_right 1 y₁ y₂ hy (ix2 (ρ p) j) rfl rfl (ix2 (ρ p) ⟨j.val - a, hj'⟩)
          (fun d hd => by match d with | ⟨0, _⟩ => rfl | ⟨1, _⟩ => exact absurd rfl hd)
          (by show j.val - a + a = j.val; omega)]
    exact h₂ p _

section Pointwise
variable {N : Nat} {φ : FTy} {x x' : FVec Ideal ⟨2, ![M, N]⟩ φ} {y y' : FVec Ideal ⟨2, ![M', N]⟩ .f32}

theorem Rel.addf (h : Rel ρ x y) (h' : Rel ρ x' y') : Rel ρ (addf x x') (addf y y') := fun p j => by
  show (x (ix2 p j) : EReal) + x' (ix2 p j) = y (ix2 (ρ p) j) + y' (ix2 (ρ p) j)
  rw [h p j, h' p j]

theorem Rel.mulf (h : Rel ρ x y) (h' : Rel ρ x' y') : Rel ρ (mulf x x') (mulf y y') := fun p j => by
  show (x (ix2 p j) : EReal) * x' (ix2 p j) = y (ix2 (ρ p) j) * y' (ix2 (ρ p) j)
  rw [h p j, h' p j]

theorem Rel.subf (h : Rel ρ x y) (h' : Rel ρ x' y') : Rel ρ (subf x x') (subf y y') := fun p j => by
  show (x (ix2 p j) : EReal) - x' (ix2 p j) = y (ix2 (ρ p) j) - y' (ix2 (ρ p) j)
  rw [h p j, h' p j]

theorem Rel.maximumf (h : Rel ρ x y) (h' : Rel ρ x' y') : Rel ρ (maximumf x x') (maximumf y y') := fun p j => by
  show max (x (ix2 p j) : EReal) (x' (ix2 p j)) = max (y (ix2 (ρ p) j)) (y' (ix2 (ρ p) j))
  rw [h p j, h' p j]

theorem Rel.minimumf (h : Rel ρ x y) (h' : Rel ρ x' y') : Rel ρ (minimumf x x') (minimumf y y') := fun p j => by
  show min (x (ix2 p j) : EReal) (x' (ix2 p j)) = min (y (ix2 (ρ p) j)) (y' (ix2 (ρ p) j))
  rw [h p j, h' p j]

/-- Sums of three related terms are related however they are grouped: addition of extended reals is associative. -/
theorem Rel.addf_assoc {x'' : FVec Ideal ⟨2, ![M, N]⟩ φ} {y'' : FVec Ideal ⟨2, ![M', N]⟩ .f32}
    (h : Rel ρ x y) (h' : Rel ρ x' y') (h'' : Rel ρ x'' y'') :
    Rel ρ (Idealize.ShloMosaic.addf x (Idealize.ShloMosaic.addf x' x'')) (Idealize.ShloMosaic.addf (Idealize.ShloMosaic.addf y y') y'') := fun p j => by
  show (x (ix2 p j) : EReal) + (x' (ix2 p j) + x'' (ix2 p j)) = y (ix2 (ρ p) j) + y' (ix2 (ρ p) j) + y'' (ix2 (ρ p) j)
  rw [h p j, h' p j, h'' p j, add_assoc]

/-- The vector unit's hyperbolic tangent and the host's are one function of an extended real. -/
theorem Rel.tanh (h : Rel ρ x y) : Rel ρ (tanh x) (Host.tanh y) := fun p j => by
  show Ideal.tanh (x (ix2 p j)) = Ideal.tanh (y (ix2 (ρ p) j))
  rw [h p j]

/-- The vector unit's exponential and the host's are one function of an extended real. -/
theorem Rel.exp (h : Rel ρ x y) : Rel ρ (exp x) (Host.exp y) := fun p j => by
  show Ideal.exp (x (ix2 p j)) = Ideal.exp (y (ix2 (ρ p) j))
  rw [h p j]

/-- A change of float format on the left is the identity on extended reals. -/
theorem Rel.truncf_left {φ' : FTy} (hb : φ'.bits < φ.bits) (h : Rel ρ x y) : Rel ρ (truncf φ' x hb) y := fun p j => h p j

end Pointwise

/-- A broadcast scalar constant read anywhere is the value of its word. -/
theorem splat_apply {t : Shape} (φ : FTy) (w : BitVec φ.bits) (hb : (⟨0, ![]⟩ : Shape).BroadcastsInDim t ![]) (i : t.Idx) :
    broadcastInDim t ![] hb (constant (F := Ideal) ⟨0, ![]⟩ φ w) i = Ideal.ofBits φ w :=
  broadcastInDim_apply ![] hb _ i ix0 (fun a => a.elim0)

/-- The vector unit's splat of a scalar literal and the host's broadcast of the same word are related. -/
theorem Rel.splat {N : Nat} (w : BitVec 32) (hb : (⟨0, ![]⟩ : Shape).BroadcastsInDim ⟨2, ![M', N]⟩ ![]) :
    Rel ρ (φ := .f32) (broadcast ⟨2, ![M, N]⟩ (Scalar.ofBits (F := Ideal) .f32 w))
      (broadcastInDim ⟨2, ![M', N]⟩ ![] hb (constant (F := Ideal) ⟨0, ![]⟩ .f32 w)) := fun p j => by
  rw [splat_apply]; rfl

/-- The vector unit's logistic function is, at the ideal values, the quotient 1 / (1 + exp (−y)) the host spells out
    with the word of 1.0. -/
theorem Rel.logistic {N : Nat} {x : FVec Ideal ⟨2, ![M, N]⟩ .f32} {y : FVec Ideal ⟨2, ![M', N]⟩ .f32} (h : Rel ρ x y)
    (hb hb' : (⟨0, ![]⟩ : Shape).BroadcastsInDim ⟨2, ![M', N]⟩ ![]) :
    Rel ρ (logistic x)
      (Host.divf (broadcastInDim ⟨2, ![M', N]⟩ ![] hb (constant (F := Ideal) ⟨0, ![]⟩ .f32 0x3F800000#32))
        (Idealize.ShloMosaic.addf (broadcastInDim ⟨2, ![M', N]⟩ ![] hb' (constant (F := Ideal) ⟨0, ![]⟩ .f32 0x3F800000#32))
          (Host.exp (Host.negf y)))) := fun p j => by
  show Ideal.logistic (x (ix2 p j))
    = Ideal.div (broadcastInDim ⟨2, ![M', N]⟩ ![] hb (constant (F := Ideal) ⟨0, ![]⟩ .f32 0x3F800000#32) (ix2 (ρ p) j))
        (broadcastInDim ⟨2, ![M', N]⟩ ![] hb' (constant (F := Ideal) ⟨0, ![]⟩ .f32 0x3F800000#32) (ix2 (ρ p) j)
          + Ideal.exp (-(y (ix2 (ρ p) j))))
  rw [splat_apply, Ideal.ofBits_one_f32, h p j]
  rfl

/-- One bias row added to every row: the vector unit broadcasts the row, the host broadcasts it in the two dimensions. -/
theorem Rel.biasRow {N : Nat} {φ : FTy} {b : FVec Ideal ⟨2, ![1, N]⟩ φ} {b' : FVec Ideal ⟨2, ![1, N]⟩ .f32}
    (h : ∀ i, (b i : EReal) = b' i)
    (hb : (⟨2, ![1, N]⟩ : Shape).Broadcasts ⟨2, ![M, N]⟩) (hb' : (⟨2, ![1, N]⟩ : Shape).BroadcastsInDim ⟨2, ![M', N]⟩ ![0, 1]) :
    Rel ρ (φ := φ) (broadcastTo ⟨2, ![M, N]⟩ b hb) (broadcastInDim ⟨2, ![M', N]⟩ ![0, 1] hb' b') := fun p j => by
  rw [broadcastTo_1b_ab_apply b hb p j,
    broadcastInDim_apply ![0, 1] hb' b' (ix2 (ρ p) j) (ix2 (0 : Fin 1) j) (fun a => by
      match a with
      | ⟨0, _⟩ => show (0 : Nat) = if (1 : Nat) = 1 then 0 else _; rw [if_pos rfl]
      | ⟨1, _⟩ =>
        show j.val = if N = 1 then 0 else j.val
        split
        · have := j.isLt; omega
        · rfl)]
  exact h _

/-- Six related pieces laid side by side are related: an entry of the joined matrix comes from the piece whose span of
    columns holds its column, at the same row and at the column less the extents of the pieces before it. -/
theorem Rel.concat6 {a1 a2 a3 a4 a5 a6 c : Nat} {φ : FTy}
    {x1 : FVec Ideal ⟨2, ![M, a1]⟩ φ} {x2 : FVec Ideal ⟨2, ![M, a2]⟩ φ} {x3 : FVec Ideal ⟨2, ![M, a3]⟩ φ}
    {x4 : FVec Ideal ⟨2, ![M, a4]⟩ φ} {x5 : FVec Ideal ⟨2, ![M, a5]⟩ φ} {x6 : FVec Ideal ⟨2, ![M, a6]⟩ φ}
    {y1 : FVec Ideal ⟨2, ![M', a1]⟩ .f32} {y2 : FVec Ideal ⟨2, ![M', a2]⟩ .f32} {y3 : FVec Ideal ⟨2, ![M', a3]⟩ .f32}
    {y4 : FVec Ideal ⟨2, ![M', a4]⟩ .f32} {y5 : FVec Ideal ⟨2, ![M', a5]⟩ .f32} {y6 : FVec Ideal ⟨2, ![M', a6]⟩ .f32}
    (h1 : Rel ρ x1 y1) (h2 : Rel ρ x2 y2) (h3 : Rel ρ x3 y3) (h4 : Rel ρ x4 y4) (h5 : Rel ρ x5 y5) (h6 : Rel ρ x6 y6)
    (hx : Shape.Concatenates [⟨2, ![M, a1]⟩, ⟨2, ![M, a2]⟩, ⟨2, ![M, a3]⟩, ⟨2, ![M, a4]⟩, ⟨2, ![M, a5]⟩, ⟨2, ![M, a6]⟩] ⟨2, ![M, c]⟩ 1)
    (hy : Shape.Concatenates [⟨2, ![M', a1]⟩, ⟨2, ![M', a2]⟩, ⟨2, ![M', a3]⟩, ⟨2, ![M', a4]⟩, ⟨2, ![M', a5]⟩, ⟨2, ![M', a6]⟩] ⟨2, ![M', c]⟩ 1) :
    Rel ρ (φ := φ)
      (concatenate ⟨2, ![M, c]⟩ 1 [⟨⟨2, ![M, a1]⟩, x1⟩, ⟨⟨2, ![M, a2]⟩, x2⟩, ⟨⟨2, ![M, a3]⟩, x3⟩, ⟨⟨2, ![M, a4]⟩, x4⟩, ⟨⟨2, ![M, a5]⟩, x5⟩, ⟨⟨2, ![M, a6]⟩, x6⟩] hx)
      (concatenate ⟨2, ![M', c]⟩ 1 [⟨⟨2, ![M', a1]⟩, y1⟩, ⟨⟨2, ![M', a2]⟩, y2⟩, ⟨⟨2, ![M', a3]⟩, y3⟩, ⟨⟨2, ![M', a4]⟩, y4⟩, ⟨⟨2, ![M', a5]⟩, y5⟩, ⟨⟨2, ![M', a6]⟩, y6⟩] hy) := fun p j => by
  have hc : a1 + (a2 + (a3 + (a4 + (a5 + (a6 + 0))))) = c := hx.2.2
  have hjc := j.isLt
  -- the piece that holds column j, from the left
  by_cases c1 : j.val < a1
  · rw [concatenate_apply_piece 1 [⟨⟨2, ![M, a1]⟩, x1⟩, ⟨⟨2, ![M, a2]⟩, x2⟩, ⟨⟨2, ![M, a3]⟩, x3⟩, ⟨⟨2, ![M, a4]⟩, x4⟩, ⟨⟨2, ![M, a5]⟩, x5⟩, ⟨⟨2, ![M, a6]⟩, x6⟩] hx (ix2 p j) 0 (by show (0 : Nat) < 6; decide) _ x1 rfl rfl 0 rfl (ix2 p ⟨j.val, c1⟩)
          (fun d hd => by match d with | ⟨0, _⟩ => rfl | ⟨1, _⟩ => exact absurd rfl hd) (by show 0 + j.val = j.val; omega),
        concatenate_apply_piece 1 [⟨⟨2, ![M', a1]⟩, y1⟩, ⟨⟨2, ![M', a2]⟩, y2⟩, ⟨⟨2, ![M', a3]⟩, y3⟩, ⟨⟨2, ![M', a4]⟩, y4⟩, ⟨⟨2, ![M', a5]⟩, y5⟩, ⟨⟨2, ![M', a6]⟩, y6⟩] hy (ix2 (ρ p) j) 0 (by show (0 : Nat) < 6; decide) _ y1 rfl rfl 0 rfl (ix2 (ρ p) ⟨j.val, c1⟩)
          (fun d hd => by match d with | ⟨0, _⟩ => rfl | ⟨1, _⟩ => exact absurd rfl hd) (by show 0 + j.val = j.val; omega)]
    exact h1 p _
  by_cases c2 : j.val < a1 + a2
  · have hb : j.val - a1 < a2 := by omega
    rw [concatenate_apply_piece 1 [⟨⟨2, ![M, a1]⟩, x1⟩, ⟨⟨2, ![M, a2]⟩, x2⟩, ⟨⟨2, ![M, a3]⟩, x3⟩, ⟨⟨2, ![M, a4]⟩, x4⟩, ⟨⟨2, ![M, a5]⟩, x5⟩, ⟨⟨2, ![M, a6]⟩, x6⟩] hx (ix2 p j) 1 (by show (1 : Nat) < 6; decide) _ x2 rfl rfl (a1 + 0) rfl (ix2 p ⟨j.val - a1, hb⟩)
          (fun d hd => by match d with | ⟨0, _⟩ => rfl | ⟨1, _⟩ => exact absurd rfl hd) (by show a1 + 0 + (j.val - a1) = j.val; omega),
        concatenate_apply_piece 1 [⟨⟨2, ![M', a1]⟩, y1⟩, ⟨⟨2, ![M', a2]⟩, y2⟩, ⟨⟨2, ![M', a3]⟩, y3⟩, ⟨⟨2, ![M', a4]⟩, y4⟩, ⟨⟨2, ![M', a5]⟩, y5⟩, ⟨⟨2, ![M', a6]⟩, y6⟩] hy (ix2 (ρ p) j) 1 (by show (1 : Nat) < 6; decide) _ y2 rfl rfl (a1 + 0) rfl (ix2 (ρ p) ⟨j.val - a1, hb⟩)
          (fun d hd => by match d with | ⟨0, _⟩ => rfl | ⟨1, _⟩ => exact absurd rfl hd) (by show a1 + 0 + (j.val - a1) = j.val; omega)]
    exact h2 p _
  by_cases c3 : j.val < a1 + a2 + a3
  · have hb : j.val - (a1 + a2) < a3 := by omega
    rw [concatenate_apply_piece 1 [⟨⟨2, ![M, a1]⟩, x1⟩, ⟨⟨2, ![M, a2]⟩, x2⟩, ⟨⟨2, ![M, a3]⟩, x3⟩, ⟨⟨2, ![M, a4]⟩, x4⟩, ⟨⟨2, ![M, a5]⟩, x5⟩, ⟨⟨2, ![M, a6]⟩, x6⟩] hx (ix2 p j) 2 (by show (2 : Nat) < 6; decide) _ x3 rfl rfl (a1 + (a2 + 0)) rfl (ix2 p ⟨j.val - (a1 + a2), hb⟩)
          (fun d hd => by match d with | ⟨0, _⟩ => rfl | ⟨1, _⟩ => exact absurd rfl hd) (by show a1 + (a2 + 0) + (j.val - (a1 + a2)) = j.val; omega),
        concatenate_apply_piece 1 [⟨⟨2, ![M', a1]⟩, y1⟩, ⟨⟨2, ![M', a2]⟩, y2⟩, ⟨⟨2, ![M', a3]⟩, y3⟩, ⟨⟨2, ![M', a4]⟩, y4⟩, ⟨⟨2, ![M', a5]⟩, y5⟩, ⟨⟨2, ![M', a6]⟩, y6⟩] hy (ix2 (ρ p) j) 2 (by show (2 : Nat) < 6; decide) _ y3 rfl rfl (a1 + (a2 + 0)) rfl (ix2 (ρ p) ⟨j.val - (a1 + a2), hb⟩)
          (fun d hd => by match d with | ⟨0, _⟩ => rfl | ⟨1, _⟩ => exact absurd rfl hd) (by show a1 + (a2 + 0) + (j.val - (a1 + a2)) = j.val; omega)]
    exact h3 p _
  by_cases c4 : j.val < a1 + a2 + a3 + a4
  · have hb : j.val - (a1 + a2 + a3) < a4 := by omega
    rw [concatenate_apply_piece 1 [⟨⟨2, ![M, a1]⟩, x1⟩, ⟨⟨2, ![M, a2]⟩, x2⟩, ⟨⟨2, ![M, a3]⟩, x3⟩, ⟨⟨2, ![M, a4]⟩, x4⟩, ⟨⟨2, ![M, a5]⟩, x5⟩, ⟨⟨2, ![M, a6]⟩, x6⟩] hx (ix2 p j) 3 (by show (3 : Nat) < 6; decide) _ x4 rfl rfl (a1 + (a2 + (a3 + 0))) rfl (ix2 p ⟨j.val - (a1 + a2 + a3), hb⟩)
          (fun d hd => by match d with | ⟨0, _⟩ => rfl | ⟨1, _⟩ => exact absurd rfl hd) (by show a1 + (a2 + (a3 + 0)) + (j.val - (a1 + a2 + a3)) = j.val; omega),
        concatenate_apply_piece 1 [⟨⟨2, ![M', a1]⟩, y1⟩, ⟨⟨2, ![M', a2]⟩, y2⟩, ⟨⟨2, ![M', a3]⟩, y3⟩, ⟨⟨2, ![M', a4]⟩, y4⟩, ⟨⟨2, ![M', a5]⟩, y5⟩, ⟨⟨2, ![M', a6]⟩, y6⟩] hy (ix2 (ρ p) j) 3 (by show (3 : Nat) < 6; decide) _ y4 rfl rfl (a1 + (a2 + (a3 + 0))) rfl (ix2 (ρ p) ⟨j.val - (a1 + a2 + a3), hb⟩)
          (fun d hd => by match d with | ⟨0, _⟩ => rfl | ⟨1, _⟩ => exact absurd rfl hd) (by show a1 + (a2 + (a3 + 0)) + (j.val - (a1 + a2 + a3)) = j.val; omega)]
    exact h4 p _
  by_cases c5 : j.val < a1 + a2 + a3 + a4 + a5
  · have hb : j.val - (a1 + a2 + a3 + a4) < a5 := by omega
    rw [concatenate_apply_piece 1 [⟨⟨2, ![M, a1]⟩, x1⟩, ⟨⟨2, ![M, a2]⟩, x2⟩, ⟨⟨2, ![M, a3]⟩, x3⟩, ⟨⟨2, ![M, a4]⟩, x4⟩, ⟨⟨2, ![M, a5]⟩, x5⟩, ⟨⟨2, ![M, a6]⟩, x6⟩] hx (ix2 p j) 4 (by show (4 : Nat) < 6; decide) _ x5 rfl rfl (a1 + (a2 + (a3 + (a4 + 0)))) rfl (ix2 p ⟨j.val - (a1 + a2 + a3 + a4), hb⟩)
          (fun d hd => by match d with | ⟨0, _⟩ => rfl | ⟨1, _⟩ => exact absurd rfl hd) (by show a1 + (a2 + (a3 + (a4 + 0))) + (j.val - (a1 + a2 + a3 + a4)) = j.val; omega),
        concatenate_apply_piece 1 [⟨⟨2, ![M', a1]⟩, y1⟩, ⟨⟨2, ![M', a2]⟩, y2⟩, ⟨⟨2, ![M', a3]⟩, y3⟩, ⟨⟨2, ![M', a4]⟩, y4⟩, ⟨⟨2, ![M', a5]⟩, y5⟩, ⟨⟨2, ![M', a6]⟩, y6⟩] hy (ix2 (ρ p) j) 4 (by show (4 : Nat) < 6; decide) _ y5 rfl rfl (a1 + (a2 + (a3 + (a4 + 0)))) rfl (ix2 (ρ p) ⟨j.val - (a1 + a2 + a3 + a4), hb⟩)
          (fun d hd => by match d with | ⟨0, _⟩ => rfl | ⟨1, _⟩ => exact absurd rfl hd) (by show a1 + (a2 + (a3 + (a4 + 0))) + (j.val - (a1 + a2 + a3 + a4)) = j.val; omega)]
    exact h5 p _
  · have hb : j.val - (a1 + a2 + a3 + a4 + a5) < a6 := by omega
    rw [concatenate_apply_piece 1 [⟨⟨2, ![M, a1]⟩, x1⟩, ⟨⟨2, ![M, a2]⟩, x2⟩, ⟨⟨2, ![M, a3]⟩, x3⟩, ⟨⟨2, ![M, a4]⟩, x4⟩, ⟨⟨2, ![M, a5]⟩, x5⟩, ⟨⟨2, ![M, a6]⟩, x6⟩] hx (ix2 p j) 5 (by show (5 : Nat) < 6; decide) _ x6 rfl rfl (a1 + (a2 + (a3 + (a4 + (a5 + 0))))) rfl (ix2 p ⟨j.val - (a1 + a2 + a3 + a4 + a5), hb⟩)
          (fun d hd => by match d with | ⟨0, _⟩ => rfl | ⟨1, _⟩ => exact absurd rfl hd) (by show a1 + (a2 + (a3 + (a4 + (a5 + 0)))) + (j.val - (a1 + a2 + a3 + a4 + a5)) = j.val; omega),
        concatenate_apply_piece 1 [⟨⟨2, ![M', a1]⟩, y1⟩, ⟨⟨2, ![M', a2]⟩, y2⟩, ⟨⟨2, ![M', a3]⟩, y3⟩, ⟨⟨2, ![M', a4]⟩, y4⟩, ⟨⟨2, ![M', a5]⟩, y5⟩, ⟨⟨2, ![M', a6]⟩, y6⟩] hy (ix2 (ρ p) j) 5 (by show (5 : Nat) < 6; decide) _ y6 rfl rfl (a1 + (a2 + (a3 + (a4 + (a5 + 0))))) rfl (ix2 (ρ p) ⟨j.val - (a1 + a2 + a3 + a4 + a5), hb⟩)
          (fun d hd => by match d with | ⟨0, _⟩ => rfl | ⟨1, _⟩ => exact absurd rfl hd) (by show a1 + (a2 + (a3 + (a4 + (a5 + 0)))) + (j.val - (a1 + a2 + a3 + a4 + a5)) = j.val; omega)]
    exact h6 p _

end Cert.LibRowRel

end
-- ==== Proof.LibRowDot.lean ====
/-
  A matrix product keeps rows related.

  If row p of l is row ρ p of l', and the right operands agree entry by entry, then row p of the vector unit's product
  l · w into the zero accumulator is row ρ p of the host's product l' · w': at the ideal values both are the plain sums
  Σ_k l[p,k] · w[k,q].  The dimension numbers enter through six facts (one contraction axis of extent K; where an output
  index and a contraction index go in each operand), collected in one record.  Any extents.
-/
import proofs.«127197_j29540785062522_1_alg».proof.Proof.LibDotAt
import proofs.«127197_j29540785062522_1_alg».proof.Proof.LibRowRel

noncomputable section

namespace Cert.LibRowRel

open Idealize.ShloMosaic Idealize.ShloMosaic.ValueIdx

/-- Dimension numbers of a plain M×K by K×N product: the second axis of the left operand is contracted with the first of the
    right one, nothing is batched. -/
structure Plain {M K N : Nat} (D : DotDims ⟨2, ![M, K]⟩ ⟨2, ![K, N]⟩ ⟨2, ![M, N]⟩) : Prop where
  rank : D.contr.rank = 1
  size : D.contr.size ⟨0, by omega⟩ = K
  l0 : ∀ (j : (⟨2, ![M, N]⟩ : Shape).Idx) (c : D.contr.Idx), (D.lhsIdx j c 0).val = (j 0).val
  l1 : ∀ (j : (⟨2, ![M, N]⟩ : Shape).Idx) (c : D.contr.Idx), (D.lhsIdx j c 1).val = (c ⟨0, by omega⟩).val
  r0 : ∀ (j : (⟨2, ![M, N]⟩ : Shape).Idx) (c : D.contr.Idx), (D.rhsIdx j c 0).val = (c ⟨0, by omega⟩).val
  r1 : ∀ (j : (⟨2, ![M, N]⟩ : Shape).Idx) (c : D.contr.Idx), (D.rhsIdx j c 1).val = (j 1).val

variable {M M' : Nat} {ρ : Fin M → Fin M'}

/-- Products of related left operands with equal right operands are related. -/
theorem Rel.matmul {K N : Nat} {φ₁ φ₂ : FTy}
    {D : DotDims ⟨2, ![M, K]⟩ ⟨2, ![K, N]⟩ ⟨2, ![M, N]⟩} {D' : DotDims ⟨2, ![M', K]⟩ ⟨2, ![K, N]⟩ ⟨2, ![M', N]⟩}
    (hD : Plain D) (hD' : Plain D')
    {l : FVec Ideal ⟨2, ![M, K]⟩ φ₁} {l' : FVec Ideal ⟨2, ![M', K]⟩ .f32}
    {w : FVec Ideal ⟨2, ![K, N]⟩ φ₂} {w' : FVec Ideal ⟨2, ![K, N]⟩ .f32}
    (hl : Rel ρ l l') (hw : ∀ i, (w i : EReal) = w' i) (prec prec' : Option ContractPrecision) :
    Rel ρ (φ := .f32) (matmul D prec l w (constant (F := Ideal) ⟨2, ![M, N]⟩ .f32 0x00000000#32))
      (Host.dotGeneral D' prec' l' w') := fun p j => by
  show FloatOps.matmul D prec l w (constant (F := Ideal) ⟨2, ![M, N]⟩ .f32 0x00000000#32) (ix2 p j)
    = FloatOps.dotGeneral D' prec' .single l' w' (ix2 (ρ p) j)
  rw [Cert.LibDotAt.matmul_zero_ix2 D hD.rank hD.size hD.l0 hD.l1 hD.r0 hD.r1,
    Cert.LibDotAt.dotGeneral_ix2 D' hD'.rank hD'.size hD'.l0 hD'.l1 hD'.r0 hD'.r1]
  refine Finset.sum_congr rfl fun k _ => ?_
  rw [hl p k, hw (ix2 k j)]

/-- A cast of a vector to its own shape changes nothing. -/
theorem castSelf {s : Shape} {φ : FTy} {x : FVec Ideal s φ} {y : FVec Ideal s .f32} (h : ∀ i, (x i : EReal) = y i)
    (hs : s.ShapeCasts s) : ∀ i, (shapeCast s x hs i : EReal) = y i := by
  rw [shapeCast_self]; exact h

end Cert.LibRowRel

end
-- ==== Proof.Dots.lean ====
/-
  The dimension numbers of the matrix products.

  Every product in the kernels and in the reference multiplies an M × K matrix by a K × N matrix: it contracts the
  columns of the left operand with the rows of the right one and has no batch axis.  For each printed record of
  dimension numbers the six facts that say so (one contracted axis of extent K; where an output index and a
  contraction index land in each operand) are collected here.
-/
import proofs.«127197_j29540785062522_1_alg».proof.Proof.Gen.KernelIdeal
import proofs.«127197_j29540785062522_1_alg».proof.Proof.Gen.ReferenceIdeal.Read
import proofs.«127197_j29540785062522_1_alg».proof.Proof.LibRowDot

noncomputable section

namespace Cert.Dots

open Idealize.ShloMosaic Cert.LibRowRel

section Kernel
open Cert.KernelIdeal
open Cert.KernelIdeal.Facts₀ Cert.KernelIdeal.Facts

theorem kernel128_l0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem kernel128_r1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl
/-- The record contracts the left operand's columns with the right operand's rows and batches nothing. -/
theorem kernel128 : Plain dot_S5000x128_S128x128_S5000x128_1_0_0_1_n_n where
  rank := rfl
  size := rfl
  l0 := kernel128_l0
  l1 := fun i q => dot_S5000x128_S128x128_S5000x128_1_0_0_1_n_n.lhsIdx_val_of_single rfl i q
  r0 := fun i q => dot_S5000x128_S128x128_S5000x128_1_0_0_1_n_n.rhsIdx_val_of_single rfl i q
  r1 := kernel128_r1

theorem kernel64_l0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem kernel64_r1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl
/-- The record contracts the left operand's columns with the right operand's rows and batches nothing. -/
theorem kernel64 : Plain dot_S5000x128_S128x64_S5000x64_1_0_0_1_n_n where
  rank := rfl
  size := rfl
  l0 := kernel64_l0
  l1 := fun i q => dot_S5000x128_S128x64_S5000x64_1_0_0_1_n_n.lhsIdx_val_of_single rfl i q
  r0 := fun i q => dot_S5000x128_S128x64_S5000x64_1_0_0_1_n_n.rhsIdx_val_of_single rfl i q
  r1 := kernel64_r1

end Kernel

section Reference
open Cert.ReferenceIdeal Cert.ReferenceIdeal.Read
open Cert.ReferenceIdeal.Facts₀ Cert.ReferenceIdeal.Facts

/-- The reference's 128-column products. -/
theorem ref128 : Plain dot_S50000x128_S128x128_S50000x128_1_0_0_1_n_n where
  rank := rfl
  size := rfl
  l0 := lhs_main_v0_0
  l1 := lhs_main_v0_1
  r0 := rhs_main_v0_0
  r1 := rhs_main_v0_1

/-- The reference's 64-column product. -/
theorem ref64 : Plain dot_S50000x128_S128x64_S50000x64_1_0_0_1_n_n where
  rank := rfl
  size := rfl
  l0 := lhs_main_v84_0
  l1 := lhs_main_v84_1
  r0 := rhs_main_v84_0
  r1 := rhs_main_v84_1

end Reference

end Cert.Dots

end
-- ==== Proof.LibRowAlg.lean ====
/-
  Two more ways in which related rows stay related.

  With x, y related along a row map (row p of x is row ρ p of y): a sum of three related terms grouped as
  (a + b) + c on one side and as (a + c) + b on the other stays related, because addition of extended reals is
  commutative and associative; and a cast of the left matrix to its own shape changes nothing.
-/
import proofs.«127197_j29540785062522_1_alg».proof.Proof.LibRowRel

noncomputable section

namespace Cert.RowAlg

open Idealize.ShloMosaic Idealize.ShloMosaic.ValueIdx Cert.LibRowRel

variable {M M' N : Nat} {ρ : Fin M → Fin M'} {φ : FTy}

/-- (a + b) + c on the left against (a' + c') + b' on the right. -/
theorem addf_swap {x x' x'' : FVec Ideal ⟨2, ![M, N]⟩ φ} {y y' y'' : FVec Ideal ⟨2, ![M', N]⟩ .f32}
    (h : Rel ρ x y) (h' : Rel ρ x' y') (h'' : Rel ρ x'' y'') :
    Rel ρ (addf (addf x x') x'') (addf (addf y y'') y') := fun p j => by
  show ((x (ix2 p j) : EReal) + x' (ix2 p j)) + x'' (ix2 p j)
    = (y (ix2 (ρ p) j) + y'' (ix2 (ρ p) j)) + y' (ix2 (ρ p) j)
  rw [h p j, h' p j, h'' p j, add_right_comm]

/-- A cast of the left matrix to its own shape. -/
theorem castSelf_left {x : FVec Ideal ⟨2, ![M, N]⟩ φ} {y : FVec Ideal ⟨2, ![M', N]⟩ .f32} (h : Rel ρ x y)
    (hs : (⟨2, ![M, N]⟩ : Shape).ShapeCasts ⟨2, ![M, N]⟩) : Rel ρ (shapeCast ⟨2, ![M, N]⟩ x hs) y := by
  rw [shapeCast_self]; exact h

end Cert.RowAlg

end
-- ==== Proof.LibRowVec.lean ====
/-
  A vector laid out as a matrix of one row.

  The vector unit reshapes a vector b : [N] to the one-row matrix [1, N]; the host writes the same matrix as a
  broadcast_in_dim of b along the second axis.  At the entry (u, j) both are b[j], whatever the unit coordinate u, so
  the two one-row matrices agree entry by entry.  Any extent N (for N = 1 the broadcast's unit-axis rule reads b[0], and
  j = 0 is the only column).
-/
import Idealize.ShloMosaic.Lib.ValueIdx
import Idealize.ShloMosaic.Lib.ValueLayout
import Idealize.ShloMosaic.Lib.Pipeline.Value

noncomputable section

namespace Cert.LibRowVec

open Idealize.ShloMosaic Idealize.ShloMosaic.ValueIdx

variable {α : Type} {N : Nat}

/-- The host's broadcast of a vector into a one-row matrix reads, at (u, j), the vector at j. -/
theorem bcastRow_apply (b : (⟨1, ![N]⟩ : Shape).Idx → α) (h : (⟨1, ![N]⟩ : Shape).BroadcastsInDim ⟨2, ![1, N]⟩ ![1])
    (u : Fin 1) (j : Fin N) : broadcastInDim ⟨2, ![1, N]⟩ ![1] h b (ix2 u j) = b (ix1 j) :=
  broadcastInDim_apply ![1] h b (ix2 u j) (ix1 j) (fun a => by
    match a with
    | ⟨0, _⟩ =>
      show j.val = if N = 1 then 0 else j.val
      split
      · have := j.isLt; omega
      · rfl)

/-- Every index of a rank-2 shape is a pair of coordinates. -/
theorem exists_ix2 {A B : Nat} (i : (⟨2, ![A, B]⟩ : Shape).Idx) : ∃ (p : Fin A) (q : Fin B), i = ix2 p q :=
  ⟨i 0, i 1, eq_ix2 i⟩

/-- The reshaped vector and the broadcast vector are the same one-row matrix. -/
theorem castRow_eq_bcastRow (b : (⟨1, ![N]⟩ : Shape).Idx → α) (hc : (⟨1, ![N]⟩ : Shape).ShapeCasts ⟨2, ![1, N]⟩)
    (hb : (⟨1, ![N]⟩ : Shape).BroadcastsInDim ⟨2, ![1, N]⟩ ![1]) (i : (⟨2, ![1, N]⟩ : Shape).Idx) :
    shapeCast ⟨2, ![1, N]⟩ b hc i = broadcastInDim ⟨2, ![1, N]⟩ ![1] hb b i := by
  obtain ⟨u, j, rfl⟩ := exists_ix2 i
  rw [shapeCast_a_1a_apply b hc u j, bcastRow_apply b hb u j]

end Cert.LibRowVec

end
-- ==== Proof.Region0.lean ====
/-
  Message-passing layer 1 on the vector unit: what its output array holds after the launch.

  The launch walks ten grid points; point t loads rows 5000 t … 5000 t + 4999 of the features x and of the aggregated
  neighbours agg, the two weight matrices and the bias row whole, and stores
  max((x·Wself + agg·Wneigh) + b, 0)  into rows 5000 t … 5000 t + 4999 of the output.  Row p of that block is therefore row 5000 t + p of the
  reference's layer  max((x·Wself + b) + agg·Wneigh, 0)  of the whole arrays (a matrix product treats rows separately, the two
  groupings of the sum agree because addition of extended reals is commutative and associative, and a change of float
  format is the identity on extended reals); the ten blocks tile the array, so the array ends holding that layer.
  Stated for any contents of the device's buffers at the launch.
-/
import proofs.«127197_j29540785062522_1_alg».proof.Proof.Gen.KernelIdeal.Frame
import proofs.«127197_j29540785062522_1_alg».proof.Proof.Net
import proofs.«127197_j29540785062522_1_alg».proof.Proof.Dots
import proofs.«127197_j29540785062522_1_alg».proof.Proof.LibRowAlg
import proofs.«127197_j29540785062522_1_alg».proof.Proof.LibRowVec
import Idealize.ShloMosaic.Lib.Pipeline.Value
import Idealize.ShloMosaic.Lib.Tactic

set_option maxRecDepth 16384

noncomputable section

namespace Cert.Region0

open Cert.KernelIdeal Cert.KernelIdeal.Gen Idealize.ShloMosaic Idealize.ShloMosaic.TcCoe Idealize.SL.Sem
open Idealize.ShloMosaic.ValueIdx Cert.LibRowRel
open Idealize.ShloMosaic.Pipeline (Dat)

theorem hz : (![0, 0] : Fin 2 → Nat) = fun _ => 0 := funext fun a => by fin_cases a <;> rfl

/-- Row p of the block of grid point t is row 5000 t + p of the array. -/
def rowOf (t : Fin cfg0.N) : Fin 5000 → Fin 50000 := fun p =>
  ⟨t.val * 5000 + p.val, by have := lt_of_lt_of_eq t.isLt N_0; have := p.isLt; omega⟩

/-- The block indices of the six windows at a grid point: the two row-tiled inputs and the output move with the point,
    the weights and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- The features' block at point t, entry (p, j), is entry (5000 t + p, j) of the features. -/
theorem iblk_x (c : Dev nD) (t : Fin cfg0.N) (p : Fin 5000) (j : Fin 128) :
    (iblk0 V c 0 t : Vec Ideal S5000x128 .f32) (ix2 p j)
      = (V c (Pipeline.arrRef spec0 0) : S50000x128.Idx → Elt Ideal .f32) (ix2 (rowOf t p) j) := by
  obtain ⟨e0, e1, -⟩ := idx_facts t
  unfold iblk0
  rw [View.read_apply]
  show V c (Pipeline.arrRef spec0 0) _ = V c (Pipeline.arrRef spec0 0) _
  refine congrArg (V c (Pipeline.arrRef spec0 0)) ?_
  funext a
  apply Fin.ext
  match a with
  | ⟨0, _⟩ => show win0_0.index t 0 * 5000 + 1 * p.val = t.val * 5000 + p.val; rw [e0]; omega
  | ⟨1, _⟩ => show win0_0.index t 1 * 128 + 1 * j.val = j.val; rw [e1]; omega

/-- The aggregated neighbours' block at point t, entry (p, j), is entry (5000 t + p, j) of that array. -/
theorem iblk_agg (c : Dev nD) (t : Fin cfg0.N) (p : Fin 5000) (j : Fin 128) :
    (iblk0 V c 1 t : Vec Ideal S5000x128 .f32) (ix2 p j)
      = (V c (Pipeline.arrRef spec0 1) : S50000x128.Idx → Elt Ideal .f32) (ix2 (rowOf t p) j) := by
  obtain ⟨-, -, e0, e1, -⟩ := idx_facts t
  unfold iblk0
  rw [View.read_apply]
  show V c (Pipeline.arrRef spec0 1) _ = V c (Pipeline.arrRef spec0 1) _
  refine congrArg (V c (Pipeline.arrRef spec0 1)) ?_
  funext a
  apply Fin.ext
  match a with
  | ⟨0, _⟩ => show win0_1.index t 0 * 5000 + 1 * p.val = t.val * 5000 + p.val; rw [e0]; omega
  | ⟨1, _⟩ => show win0_1.index t 1 * 128 + 1 * j.val = j.val; rw [e1]; omega

/-- The self weights' block at every point is the whole matrix. -/
theorem iblk_ws (c : Dev nD) (t : Fin cfg0.N) (i : S128x128.Idx) :
    (iblk0 V c 2 t : Vec Ideal S128x128 .f32) i = (V c (Pipeline.arrRef spec0 2) : S128x128.Idx → Elt Ideal .f32) i := by
  obtain ⟨-, -, -, -, e0, e1, -⟩ := idx_facts t
  unfold iblk0
  rw [View.read_apply]
  show V c (Pipeline.arrRef spec0 2) _ = V c (Pipeline.arrRef spec0 2) _
  refine congrArg (V c (Pipeline.arrRef spec0 2)) ?_
  funext a
  apply Fin.ext
  match a with
  | ⟨0, _⟩ => show win0_2.index t 0 * 128 + 1 * (i 0).val = (i 0).val; rw [e0]; omega
  | ⟨1, _⟩ => show win0_2.index t 1 * 128 + 1 * (i 1).val = (i 1).val; rw [e1]; omega

/-- The neighbour weights' block at every point is the whole matrix. -/
theorem iblk_wn (c : Dev nD) (t : Fin cfg0.N) (i : S128x128.Idx) :
    (iblk0 V c 3 t : Vec Ideal S128x128 .f32) i = (V c (Pipeline.arrRef spec0 3) : S128x128.Idx → Elt Ideal .f32) i := by
  obtain ⟨-, -, -, -, -, -, e0, e1, -⟩ := idx_facts t
  unfold iblk0
  rw [View.read_apply]
  show V c (Pipeline.arrRef spec0 3) _ = V c (Pipeline.arrRef spec0 3) _
  refine congrArg (V c (Pipeline.arrRef spec0 3)) ?_
  funext a
  apply Fin.ext
  match a with
  | ⟨0, _⟩ => show win0_3.index t 0 * 128 + 1 * (i 0).val = (i 0).val; rw [e0]; omega
  | ⟨1, _⟩ => show win0_3.index t 1 * 128 + 1 * (i 1).val = (i 1).val; rw [e1]; omega

/-- The bias row's block at every point is the whole row. -/
theorem iblk_b (c : Dev nD) (t : Fin cfg0.N) (i : S1x128.Idx) :
    (iblk0 V c 4 t : Vec Ideal S1x128 .f32) i = (V c (Pipeline.arrRef spec0 4) : S1x128.Idx → Elt Ideal .f32) i := by
  obtain ⟨-, -, -, -, -, -, -, -, e0, e1, -⟩ := idx_facts t
  unfold iblk0
  rw [View.read_apply]
  show V c (Pipeline.arrRef spec0 4) _ = V c (Pipeline.arrRef spec0 4) _
  refine congrArg (V c (Pipeline.arrRef spec0 4)) ?_
  funext a
  apply Fin.ext
  match a with
  | ⟨0, _⟩ => show win0_4.index t 0 * 1 + 1 * (i 0).val = (i 0).val; rw [e0]; omega
  | ⟨1, _⟩ => show win0_4.index t 1 * 128 + 1 * (i 1).val = (i 1).val; rw [e1]; omega

/-- The body's stored value of blocks whose rows are rows of the whole arrays is, row by row, the reference's layer of the
    whole arrays. -/
theorem pay_rel {ρ : Fin 5000 → Fin 50000} (x0 x1 : FVec Ideal S5000x128 .f32) (x2 x3 : FVec Ideal S128x128 .f32) (x4 : FVec Ideal S1x128 .f32)
    (X AGG : Cert.Net.Nodes) (WS WN : Cert.Net.Wt) (B : Cert.Net.Bias)
    (h0 : Rel ρ x0 X) (h1 : Rel ρ x1 AGG) (h2 : ∀ i, (x2 i : EReal) = WS i) (h3 : ∀ i, (x3 i : EReal) = WN i)
    (h4 : ∀ i, (x4 i : EReal) = broadcastInDim Cert.ReferenceIdeal.S1x128 ![1] Cert.ReferenceIdeal.Facts₀.bcast_S128_S1x128_1 B i) :
    Rel ρ (k0_pay1 x0 x1 x2 x3 x4) (Cert.Net.relu (Cert.Net.sage X AGG WS WN B)) := by
  unfold k0_pay1 Cert.Net.relu Cert.Net.sage
  exact Rel.maximumf (Cert.RowAlg.addf_swap
      (Rel.matmul Cert.Dots.kernel128 Cert.Dots.ref128 (Rel.truncf_left _ h0) (fun i => h2 i) none none)
      (Rel.matmul Cert.Dots.kernel128 Cert.Dots.ref128 (Rel.truncf_left _ (Cert.RowAlg.castSelf_left h1 _)) (fun i => h3 i) none none)
      (Rel.biasRow (castSelf h4 _) _ _))
    (Rel.splat _ _)

/-- What point t writes back is block t of the reference's layer of the arrays as the launch finds them. -/
theorem flushed_eq (c : Dev nD) (t : Fin cfg0.N) (G : Cert.Net.Nodes)
    (hG : Rel (rowOf t) (k0_pay1 (iblk0 V c 0 t) (iblk0 V c 1 t) (iblk0 V c 2 t) (iblk0 V c 3 t) (iblk0 V c 4 t)) G) :
    (dat0 V c).flushed 5 t = ((cfg0.win 5).blk t).view.read (Elt Ideal) G := by
  obtain ⟨-, -, -, -, -, -, -, -, -, -, e0, e1⟩ := idx_facts t
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext y
  obtain ⟨p, j, rfl⟩ : ∃ (p : Fin 5000) (j : Fin 128), y = ix2 p j := ⟨y 0, y 1, eq_ix2 y⟩
  rw [View.read_apply]
  refine (hG p j).trans ?_
  show G _ = G _
  refine congrArg G ?_
  funext a
  apply Fin.ext
  match a with
  | ⟨0, _⟩ => show t.val * 5000 + p.val = win0_5.index t 0 * 5000 + 1 * p.val; rw [e0]; omega
  | ⟨1, _⟩ => show j.val = win0_5.index t 1 * 128 + 1 * j.val; rw [e1]; omega

/-- An index of the output array is in point t's block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v19).slice (win0_5.rect t)).set ↔ _
  rw [View.set_slice_whole, Rect.mem_set_unit]
  exact Iff.rfl

/-- The ten blocks of 5000 rows tile the 50000 rows. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  refine ⟨⟨(i 0).val / 5000, by rw [show cfg0.N = 10 from N_0]; omega⟩, flush0_5 _, ?_⟩
  obtain ⟨-, -, -, -, -, -, -, -, -, -, e0, e1⟩ := idx_facts ⟨(i 0).val / 5000, by rw [show cfg0.N = 10 from N_0]; omega⟩
  rw [mem_blk]
  intro a
  match a with
  | ⟨0, _⟩ => show win0_5.index _ 0 * 5000 ≤ (i 0).val ∧ (i 0).val < win0_5.index _ 0 * 5000 + 5000; rw [e0]; show (i 0).val / 5000 * 5000 ≤ _ ∧ _ < (i 0).val / 5000 * 5000 + 5000; omega
  | ⟨1, _⟩ => show win0_5.index _ 1 * 128 ≤ (i 1).val ∧ (i 1).val < win0_5.index _ 1 * 128 + 128; rw [e1]; omega

/-- THE OUTPUT ARRAY after the launch: the reference's layer of the input arrays as the launch finds them, when the bias
    row it finds is the bias vector laid out as one row. -/
theorem final (c : Dev nD) (B : Cert.Net.Bias)
    (hB : ∀ i, ((V c (Pipeline.arrRef spec0 4) : S1x128.Idx → Elt Ideal .f32) i : EReal)
      = broadcastInDim Cert.ReferenceIdeal.S1x128 ![1] Cert.ReferenceIdeal.Facts₀.bcast_S128_S1x128_1 B i) :
    (dat0 V c).arrAt 5 cfg0.N
      = Cert.Net.relu (Cert.Net.sage (V c (Pipeline.arrRef spec0 0)) (V c (Pipeline.arrRef spec0 1)) (V c (Pipeline.arrRef spec0 2)) (V c (Pipeline.arrRef spec0 3)) B) :=
  (dat0 V c).arrAt_eq_of_cover 5 _ (fun t _ => flushed_eq V c t _
    (pay_rel (iblk0 V c 0 t) (iblk0 V c 1 t) (iblk0 V c 2 t) (iblk0 V c 3 t) (iblk0 V c 4 t) _ _ _ _ B
      (fun p j => iblk_x V c t p j) (fun p j => iblk_agg V c t p j) (fun i => iblk_ws V c t i) (fun i => iblk_wn V c t i)
      (fun i => (iblk_b V c t i).trans (hB i)))) cover

end Cert.Region0

end
-- ==== Proof.Region1.lean ====
/-
  Message-passing layer 2 on the vector unit: what its output array holds after the launch.

  The launch walks ten grid points; point t loads rows 5000 t … 5000 t + 4999 of the features x and of the aggregated
  neighbours agg, the two weight matrices and the bias row whole, and stores
  max((x·Wself + agg·Wneigh) + b, 0)  into rows 5000 t … 5000 t + 4999 of the output.  Row p of that block is therefore row 5000 t + p of the
  reference's layer  max((x·Wself + b) + agg·Wneigh, 0)  of the whole arrays (a matrix product treats rows separately, the two
  groupings of the sum agree because addition of extended reals is commutative and associative, and a change of float
  format is the identity on extended reals); the ten blocks tile the array, so the array ends holding that layer.
  Stated for any contents of the device's buffers at the launch.
-/
import proofs.«127197_j29540785062522_1_alg».proof.Proof.Gen.KernelIdeal.Frame
import proofs.«127197_j29540785062522_1_alg».proof.Proof.Net
import proofs.«127197_j29540785062522_1_alg».proof.Proof.Dots
import proofs.«127197_j29540785062522_1_alg».proof.Proof.LibRowAlg
import proofs.«127197_j29540785062522_1_alg».proof.Proof.LibRowVec
import Idealize.ShloMosaic.Lib.Pipeline.Value
import Idealize.ShloMosaic.Lib.Tactic

set_option maxRecDepth 16384

noncomputable section

namespace Cert.Region1

open Cert.KernelIdeal Cert.KernelIdeal.Gen Idealize.ShloMosaic Idealize.ShloMosaic.TcCoe Idealize.SL.Sem
open Idealize.ShloMosaic.ValueIdx Cert.LibRowRel
open Idealize.ShloMosaic.Pipeline (Dat)

theorem hz : (![0, 0] : Fin 2 → Nat) = fun _ => 0 := funext fun a => by fin_cases a <;> rfl

/-- Row p of the block of grid point t is row 5000 t + p of the array. -/
def rowOf (t : Fin cfg1.N) : Fin 5000 → Fin 50000 := fun p =>
  ⟨t.val * 5000 + p.val, by have := lt_of_lt_of_eq t.isLt N_1; have := p.isLt; omega⟩

/-- The block indices of the six windows at a grid point: the two row-tiled inputs and the output move with the point,
    the weights and the bias stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- The features' block at point t, entry (p, j), is entry (5000 t + p, j) of the features. -/
theorem iblk_x (c : Dev nD) (t : Fin cfg1.N) (p : Fin 5000) (j : Fin 128) :
    (iblk1 V c 0 t : Vec Ideal S5000x128 .f32) (ix2 p j)
      = (V c (Pipeline.arrRef spec1 0) : S50000x128.Idx → Elt Ideal .f32) (ix2 (rowOf t p) j) := by
  obtain ⟨e0, e1, -⟩ := idx_facts t
  unfold iblk1
  rw [View.read_apply]
  show V c (Pipeline.arrRef spec1 0) _ = V c (Pipeline.arrRef spec1 0) _
  refine congrArg (V c (Pipeline.arrRef spec1 0)) ?_
  funext a
  apply Fin.ext
  match a with
  | ⟨0, _⟩ => show win1_0.index t 0 * 5000 + 1 * p.val = t.val * 5000 + p.val; rw [e0]; omega
  | ⟨1, _⟩ => show win1_0.index t 1 * 128 + 1 * j.val = j.val; rw [e1]; omega

/-- The aggregated neighbours' block at point t, entry (p, j), is entry (5000 t + p, j) of that array. -/
theorem iblk_agg (c : Dev nD) (t : Fin cfg1.N) (p : Fin 5000) (j : Fin 128) :
    (iblk1 V c 1 t : Vec Ideal S5000x128 .f32) (ix2 p j)
      = (V c (Pipeline.arrRef spec1 1) : S50000x128.Idx → Elt Ideal .f32) (ix2 (rowOf t p) j) := by
  obtain ⟨-, -, e0, e1, -⟩ := idx_facts t
  unfold iblk1
  rw [View.read_apply]
  show V c (Pipeline.arrRef spec1 1) _ = V c (Pipeline.arrRef spec1 1) _
  refine congrArg (V c (Pipeline.arrRef spec1 1)) ?_
  funext a
  apply Fin.ext
  match a with
  | ⟨0, _⟩ => show win1_1.index t 0 * 5000 + 1 * p.val = t.val * 5000 + p.val; rw [e0]; omega
  | ⟨1, _⟩ => show win1_1.index t 1 * 128 + 1 * j.val = j.val; rw [e1]; omega

/-- The self weights' block at every point is the whole matrix. -/
theorem iblk_ws (c : Dev nD) (t : Fin cfg1.N) (i : S128x128.Idx) :
    (iblk1 V c 2 t : Vec Ideal S128x128 .f32) i = (V c (Pipeline.arrRef spec1 2) : S128x128.Idx → Elt Ideal .f32) i := by
  obtain ⟨-, -, -, -, e0, e1, -⟩ := idx_facts t
  unfold iblk1
  rw [View.read_apply]
  show V c (Pipeline.arrRef spec1 2) _ = V c (Pipeline.arrRef spec1 2) _
  refine congrArg (V c (Pipeline.arrRef spec1 2)) ?_
  funext a
  apply Fin.ext
  match a with
  | ⟨0, _⟩ => show win1_2.index t 0 * 128 + 1 * (i 0).val = (i 0).val; rw [e0]; omega
  | ⟨1, _⟩ => show win1_2.index t 1 * 128 + 1 * (i 1).val = (i 1).val; rw [e1]; omega

/-- The neighbour weights' block at every point is the whole matrix. -/
theorem iblk_wn (c : Dev nD) (t : Fin cfg1.N) (i : S128x128.Idx) :
    (iblk1 V c 3 t : Vec Ideal S128x128 .f32) i = (V c (Pipeline.arrRef spec1 3) : S128x128.Idx → Elt Ideal .f32) i := by
  obtain ⟨-, -, -, -, -, -, e0, e1, -⟩ := idx_facts t
  unfold iblk1
  rw [View.read_apply]
  show V c (Pipeline.arrRef spec1 3) _ = V c (Pipeline.arrRef spec1 3) _
  refine congrArg (V c (Pipeline.arrRef spec1 3)) ?_
  funext a
  apply Fin.ext
  match a with
  | ⟨0, _⟩ => show win1_3.index t 0 * 128 + 1 * (i 0).val = (i 0).val; rw [e0]; omega
  | ⟨1, _⟩ => show win1_3.index t 1 * 128 + 1 * (i 1).val = (i 1).val; rw [e1]; omega

/-- The bias row's block at every point is the whole row. -/
theorem iblk_b (c : Dev nD) (t : Fin cfg1.N) (i : S1x128.Idx) :
    (iblk1 V c 4 t : Vec Ideal S1x128 .f32) i = (V c (Pipeline.arrRef spec1 4) : S1x128.Idx → Elt Ideal .f32) i := by
  obtain ⟨-, -, -, -, -, -, -, -, e0, e1, -⟩ := idx_facts t
  unfold iblk1
  rw [View.read_apply]
  show V c (Pipeline.arrRef spec1 4) _ = V c (Pipeline.arrRef spec1 4) _
  refine congrArg (V c (Pipeline.arrRef spec1 4)) ?_
  funext a
  apply Fin.ext
  match a with
  | ⟨0, _⟩ => show win1_4.index t 0 * 1 + 1 * (i 0).val = (i 0).val; rw [e0]; omega
  | ⟨1, _⟩ => show win1_4.index t 1 * 128 + 1 * (i 1).val = (i 1).val; rw [e1]; omega

/-- The body's stored value of blocks whose rows are rows of the whole arrays is, row by row, the reference's layer of the
    whole arrays. -/
theorem pay_rel {ρ : Fin 5000 → Fin 50000} (x0 x1 : FVec Ideal S5000x128 .f32) (x2 x3 : FVec Ideal S128x128 .f32) (x4 : FVec Ideal S1x128 .f32)
    (X AGG : Cert.Net.Nodes) (WS WN : Cert.Net.Wt) (B : Cert.Net.Bias)
    (h0 : Rel ρ x0 X) (h1 : Rel ρ x1 AGG) (h2 : ∀ i, (x2 i : EReal) = WS i) (h3 : ∀ i, (x3 i : EReal) = WN i)
    (h4 : ∀ i, (x4 i : EReal) = broadcastInDim Cert.ReferenceIdeal.S1x128 ![1] Cert.ReferenceIdeal.Facts₀.bcast_S128_S1x128_1 B i) :
    Rel ρ (k1_pay1 x0 x1 x2 x3 x4) (Cert.Net.relu (Cert.Net.sage X AGG WS WN B)) := by
  unfold k1_pay1 Cert.Net.relu Cert.Net.sage
  exact Rel.maximumf (Cert.RowAlg.addf_swap
      (Rel.matmul Cert.Dots.kernel128 Cert.Dots.ref128 (Rel.truncf_left _ (Cert.RowAlg.castSelf_left h0 _)) (fun i => h2 i) none none)
      (Rel.matmul Cert.Dots.kernel128 Cert.Dots.ref128 (Rel.truncf_left _ (Cert.RowAlg.castSelf_left h1 _)) (fun i => h3 i) none none)
      (Rel.biasRow (castSelf h4 _) _ _))
    (Rel.splat _ _)

/-- What point t writes back is block t of the reference's layer of the arrays as the launch finds them. -/
theorem flushed_eq (c : Dev nD) (t : Fin cfg1.N) (G : Cert.Net.Nodes)
    (hG : Rel (rowOf t) (k1_pay1 (iblk1 V c 0 t) (iblk1 V c 1 t) (iblk1 V c 2 t) (iblk1 V c 3 t) (iblk1 V c 4 t)) G) :
    (dat1 V c).flushed 5 t = ((cfg1.win 5).blk t).view.read (Elt Ideal) G := by
  obtain ⟨-, -, -, -, -, -, -, -, -, -, e0, e1⟩ := idx_facts t
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext y
  obtain ⟨p, j, rfl⟩ : ∃ (p : Fin 5000) (j : Fin 128), y = ix2 p j := ⟨y 0, y 1, eq_ix2 y⟩
  rw [View.read_apply]
  refine (hG p j).trans ?_
  show G _ = G _
  refine congrArg G ?_
  funext a
  apply Fin.ext
  match a with
  | ⟨0, _⟩ => show t.val * 5000 + p.val = win1_5.index t 0 * 5000 + 1 * p.val; rw [e0]; omega
  | ⟨1, _⟩ => show j.val = win1_5.index t 1 * 128 + 1 * j.val; rw [e1]; omega

/-- An index of the output array is in point t's block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v39).slice (win1_5.rect t)).set ↔ _
  rw [View.set_slice_whole, Rect.mem_set_unit]
  exact Iff.rfl

/-- The ten blocks of 5000 rows tile the 50000 rows. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  refine ⟨⟨(i 0).val / 5000, by rw [show cfg1.N = 10 from N_1]; omega⟩, flush1_5 _, ?_⟩
  obtain ⟨-, -, -, -, -, -, -, -, -, -, e0, e1⟩ := idx_facts ⟨(i 0).val / 5000, by rw [show cfg1.N = 10 from N_1]; omega⟩
  rw [mem_blk]
  intro a
  match a with
  | ⟨0, _⟩ => show win1_5.index _ 0 * 5000 ≤ (i 0).val ∧ (i 0).val < win1_5.index _ 0 * 5000 + 5000; rw [e0]; show (i 0).val / 5000 * 5000 ≤ _ ∧ _ < (i 0).val / 5000 * 5000 + 5000; omega
  | ⟨1, _⟩ => show win1_5.index _ 1 * 128 ≤ (i 1).val ∧ (i 1).val < win1_5.index _ 1 * 128 + 128; rw [e1]; omega

/-- THE OUTPUT ARRAY after the launch: the reference's layer of the input arrays as the launch finds them, when the bias
    row it finds is the bias vector laid out as one row. -/
theorem final (c : Dev nD) (B : Cert.Net.Bias)
    (hB : ∀ i, ((V c (Pipeline.arrRef spec1 4) : S1x128.Idx → Elt Ideal .f32) i : EReal)
      = broadcastInDim Cert.ReferenceIdeal.S1x128 ![1] Cert.ReferenceIdeal.Facts₀.bcast_S128_S1x128_1 B i) :
    (dat1 V c).arrAt 5 cfg1.N
      = Cert.Net.relu (Cert.Net.sage (V c (Pipeline.arrRef spec1 0)) (V c (Pipeline.arrRef spec1 1)) (V c (Pipeline.arrRef spec1 2)) (V c (Pipeline.arrRef spec1 3)) B) :=
  (dat1 V c).arrAt_eq_of_cover 5 _ (fun t _ => flushed_eq V c t _
    (pay_rel (iblk1 V c 0 t) (iblk1 V c 1 t) (iblk1 V c 2 t) (iblk1 V c 3 t) (iblk1 V c 4 t) _ _ _ _ B
      (fun p j => iblk_x V c t p j) (fun p j => iblk_agg V c t p j) (fun i => iblk_ws V c t i) (fun i => iblk_wn V c t i)
      (fun i => (iblk_b V c t i).trans (hB i)))) cover

end Cert.Region1

end
-- ==== Proof.Region2.lean ====
/-
  Message-passing layer 3 on the vector unit: what its output array holds after the launch.

  The launch walks ten grid points; point t loads rows 5000 t … 5000 t + 4999 of the features x and of the aggregated
  neighbours agg, the two weight matrices and the bias row whole, and stores
  (x·Wself + agg·Wneigh) + b  into rows 5000 t … 5000 t + 4999 of the output.  Row p of that block is therefore row 5000 t + p of the
  reference's layer  (x·Wself + b) + agg·Wneigh  of the whole arrays (a matrix product treats rows separately, the two
  groupings of the sum agree because addition of extended reals is commutative and associative, and a change of float
  format is the identity on extended reals); the ten blocks tile the array, so the array ends holding that layer.
  Stated for any contents of the device's buffers at the launch.
-/
import proofs.«127197_j29540785062522_1_alg».proof.Proof.Gen.KernelIdeal.Frame
import proofs.«127197_j29540785062522_1_alg».proof.Proof.Net
import proofs.«127197_j29540785062522_1_alg».proof.Proof.Dots
import proofs.«127197_j29540785062522_1_alg».proof.Proof.LibRowAlg
import proofs.«127197_j29540785062522_1_alg».proof.Proof.LibRowVec
import Idealize.ShloMosaic.Lib.Pipeline.Value
import Idealize.ShloMosaic.Lib.Tactic

set_option maxRecDepth 16384

noncomputable section

namespace Cert.Region2

open Cert.KernelIdeal Cert.KernelIdeal.Gen Idealize.ShloMosaic Idealize.ShloMosaic.TcCoe Idealize.SL.Sem
open Idealize.ShloMosaic.ValueIdx Cert.LibRowRel
open Idealize.ShloMosaic.Pipeline (Dat)

theorem hz : (![0, 0] : Fin 2 → Nat) = fun _ => 0 := funext fun a => by fin_cases a <;> rfl

/-- Row p of the block of grid point t is row 5000 t + p of the array. -/
def rowOf (t : Fin cfg2.N) : Fin 5000 → Fin 50000 := fun p =>
  ⟨t.val * 5000 + p.val, by have := lt_of_lt_of_eq t.isLt N_2; have := p.isLt; omega⟩

/-- The block indices of the six windows at a grid point: the two row-tiled inputs and the output move with the point,
    the weights and the bias stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- The features' block at point t, entry (p, j), is entry (5000 t + p, j) of the features. -/
theorem iblk_x (c : Dev nD) (t : Fin cfg2.N) (p : Fin 5000) (j : Fin 128) :
    (iblk2 V c 0 t : Vec Ideal S5000x128 .f32) (ix2 p j)
      = (V c (Pipeline.arrRef spec2 0) : S50000x128.Idx → Elt Ideal .f32) (ix2 (rowOf t p) j) := by
  obtain ⟨e0, e1, -⟩ := idx_facts t
  unfold iblk2
  rw [View.read_apply]
  show V c (Pipeline.arrRef spec2 0) _ = V c (Pipeline.arrRef spec2 0) _
  refine congrArg (V c (Pipeline.arrRef spec2 0)) ?_
  funext a
  apply Fin.ext
  match a with
  | ⟨0, _⟩ => show win2_0.index t 0 * 5000 + 1 * p.val = t.val * 5000 + p.val; rw [e0]; omega
  | ⟨1, _⟩ => show win2_0.index t 1 * 128 + 1 * j.val = j.val; rw [e1]; omega

/-- The aggregated neighbours' block at point t, entry (p, j), is entry (5000 t + p, j) of that array. -/
theorem iblk_agg (c : Dev nD) (t : Fin cfg2.N) (p : Fin 5000) (j : Fin 128) :
    (iblk2 V c 1 t : Vec Ideal S5000x128 .f32) (ix2 p j)
      = (V c (Pipeline.arrRef spec2 1) : S50000x128.Idx → Elt Ideal .f32) (ix2 (rowOf t p) j) := by
  obtain ⟨-, -, e0, e1, -⟩ := idx_facts t
  unfold iblk2
  rw [View.read_apply]
  show V c (Pipeline.arrRef spec2 1) _ = V c (Pipeline.arrRef spec2 1) _
  refine congrArg (V c (Pipeline.arrRef spec2 1)) ?_
  funext a
  apply Fin.ext
  match a with
  | ⟨0, _⟩ => show win2_1.index t 0 * 5000 + 1 * p.val = t.val * 5000 + p.val; rw [e0]; omega
  | ⟨1, _⟩ => show win2_1.index t 1 * 128 + 1 * j.val = j.val; rw [e1]; omega

/-- The self weights' block at every point is the whole matrix. -/
theorem iblk_ws (c : Dev nD) (t : Fin cfg2.N) (i : S128x128.Idx) :
    (iblk2 V c 2 t : Vec Ideal S128x128 .f32) i = (V c (Pipeline.arrRef spec2 2) : S128x128.Idx → Elt Ideal .f32) i := by
  obtain ⟨-, -, -, -, e0, e1, -⟩ := idx_facts t
  unfold iblk2
  rw [View.read_apply]
  show V c (Pipeline.arrRef spec2 2) _ = V c (Pipeline.arrRef spec2 2) _
  refine congrArg (V c (Pipeline.arrRef spec2 2)) ?_
  funext a
  apply Fin.ext
  match a with
  | ⟨0, _⟩ => show win2_2.index t 0 * 128 + 1 * (i 0).val = (i 0).val; rw [e0]; omega
  | ⟨1, _⟩ => show win2_2.index t 1 * 128 + 1 * (i 1).val = (i 1).val; rw [e1]; omega

/-- The neighbour weights' block at every point is the whole matrix. -/
theorem iblk_wn (c : Dev nD) (t : Fin cfg2.N) (i : S128x128.Idx) :
    (iblk2 V c 3 t : Vec Ideal S128x128 .f32) i = (V c (Pipeline.arrRef spec2 3) : S128x128.Idx → Elt Ideal .f32) i := by
  obtain ⟨-, -, -, -, -, -, e0, e1, -⟩ := idx_facts t
  unfold iblk2
  rw [View.read_apply]
  show V c (Pipeline.arrRef spec2 3) _ = V c (Pipeline.arrRef spec2 3) _
  refine congrArg (V c (Pipeline.arrRef spec2 3)) ?_
  funext a
  apply Fin.ext
  match a with
  | ⟨0, _⟩ => show win2_3.index t 0 * 128 + 1 * (i 0).val = (i 0).val; rw [e0]; omega
  | ⟨1, _⟩ => show win2_3.index t 1 * 128 + 1 * (i 1).val = (i 1).val; rw [e1]; omega

/-- The bias row's block at every point is the whole row. -/
theorem iblk_b (c : Dev nD) (t : Fin cfg2.N) (i : S1x128.Idx) :
    (iblk2 V c 4 t : Vec Ideal S1x128 .f32) i = (V c (Pipeline.arrRef spec2 4) : S1x128.Idx → Elt Ideal .f32) i := by
  obtain ⟨-, -, -, -, -, -, -, -, e0, e1, -⟩ := idx_facts t
  unfold iblk2
  rw [View.read_apply]
  show V c (Pipeline.arrRef spec2 4) _ = V c (Pipeline.arrRef spec2 4) _
  refine congrArg (V c (Pipeline.arrRef spec2 4)) ?_
  funext a
  apply Fin.ext
  match a with
  | ⟨0, _⟩ => show win2_4.index t 0 * 1 + 1 * (i 0).val = (i 0).val; rw [e0]; omega
  | ⟨1, _⟩ => show win2_4.index t 1 * 128 + 1 * (i 1).val = (i 1).val; rw [e1]; omega

/-- The body's stored value of blocks whose rows are rows of the whole arrays is, row by row, the reference's layer of the
    whole arrays. -/
theorem pay_rel {ρ : Fin 5000 → Fin 50000} (x0 x1 : FVec Ideal S5000x128 .f32) (x2 x3 : FVec Ideal S128x128 .f32) (x4 : FVec Ideal S1x128 .f32)
    (X AGG : Cert.Net.Nodes) (WS WN : Cert.Net.Wt) (B : Cert.Net.Bias)
    (h0 : Rel ρ x0 X) (h1 : Rel ρ x1 AGG) (h2 : ∀ i, (x2 i : EReal) = WS i) (h3 : ∀ i, (x3 i : EReal) = WN i)
    (h4 : ∀ i, (x4 i : EReal) = broadcastInDim Cert.ReferenceIdeal.S1x128 ![1] Cert.ReferenceIdeal.Facts₀.bcast_S128_S1x128_1 B i) :
    Rel ρ (k2_pay1 x0 x1 x2 x3 x4) (Cert.Net.sage X AGG WS WN B) := by
  unfold k2_pay1 Cert.Net.sage
  exact (Cert.RowAlg.addf_swap
      (Rel.matmul Cert.Dots.kernel128 Cert.Dots.ref128 (Rel.truncf_left _ (Cert.RowAlg.castSelf_left h0 _)) (fun i => h2 i) none none)
      (Rel.matmul Cert.Dots.kernel128 Cert.Dots.ref128 (Rel.truncf_left _ (Cert.RowAlg.castSelf_left h1 _)) (fun i => h3 i) none none)
      (Rel.biasRow (castSelf h4 _) _ _))

/-- What point t writes back is block t of the reference's layer of the arrays as the launch finds them. -/
theorem flushed_eq (c : Dev nD) (t : Fin cfg2.N) (G : Cert.Net.Nodes)
    (hG : Rel (rowOf t) (k2_pay1 (iblk2 V c 0 t) (iblk2 V c 1 t) (iblk2 V c 2 t) (iblk2 V c 3 t) (iblk2 V c 4 t)) G) :
    (dat2 V c).flushed 5 t = ((cfg2.win 5).blk t).view.read (Elt Ideal) G := by
  obtain ⟨-, -, -, -, -, -, -, -, -, -, e0, e1⟩ := idx_facts t
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  funext y
  obtain ⟨p, j, rfl⟩ : ∃ (p : Fin 5000) (j : Fin 128), y = ix2 p j := ⟨y 0, y 1, eq_ix2 y⟩
  rw [View.read_apply]
  refine (hG p j).trans ?_
  show G _ = G _
  refine congrArg G ?_
  funext a
  apply Fin.ext
  match a with
  | ⟨0, _⟩ => show t.val * 5000 + p.val = win2_5.index t 0 * 5000 + 1 * p.val; rw [e0]; omega
  | ⟨1, _⟩ => show j.val = win2_5.index t 1 * 128 + 1 * j.val; rw [e1]; omega

/-- An index of the output array is in point t's block iff each coordinate is in the block's range on its axis. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v59).slice (win2_5.rect t)).set ↔ _
  rw [View.set_slice_whole, Rect.mem_set_unit]
  exact Iff.rfl

/-- The ten blocks of 5000 rows tile the 50000 rows. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  refine ⟨⟨(i 0).val / 5000, by rw [show cfg2.N = 10 from N_2]; omega⟩, flush2_5 _, ?_⟩
  obtain ⟨-, -, -, -, -, -, -, -, -, -, e0, e1⟩ := idx_facts ⟨(i 0).val / 5000, by rw [show cfg2.N = 10 from N_2]; omega⟩
  rw [mem_blk]
  intro a
  match a with
  | ⟨0, _⟩ => show win2_5.index _ 0 * 5000 ≤ (i 0).val ∧ (i 0).val < win2_5.index _ 0 * 5000 + 5000; rw [e0]; show (i 0).val / 5000 * 5000 ≤ _ ∧ _ < (i 0).val / 5000 * 5000 + 5000; omega
  | ⟨1, _⟩ => show win2_5.index _ 1 * 128 ≤ (i 1).val ∧ (i 1).val < win2_5.index _ 1 * 128 + 128; rw [e1]; omega

/-- THE OUTPUT ARRAY after the launch: the reference's layer of the input arrays as the launch finds them, when the bias
    row it finds is the bias vector laid out as one row. -/
theorem final (c : Dev nD) (B : Cert.Net.Bias)
    (hB : ∀ i, ((V c (Pipeline.arrRef spec2 4) : S1x128.Idx → Elt Ideal .f32) i : EReal)
      = broadcastInDim Cert.ReferenceIdeal.S1x128 ![1] Cert.ReferenceIdeal.Facts₀.bcast_S128_S1x128_1 B i) :
    (dat2 V c).arrAt 5 cfg2.N
      = Cert.Net.sage (V c (Pipeline.arrRef spec2 0)) (V c (Pipeline.arrRef spec2 1)) (V c (Pipeline.arrRef spec2 2)) (V c (Pipeline.arrRef spec2 3)) B :=
  (dat2 V c).arrAt_eq_of_cover 5 _ (fun t _ => flushed_eq V c t _
    (pay_rel (iblk2 V c 0 t) (iblk2 V c 1 t) (iblk2 V c 2 t) (iblk2 V c 3 t) (iblk2 V c 4 t) _ _ _ _ B
      (fun p j => iblk_x V c t p j) (fun p j => iblk_agg V c t p j) (fun i => iblk_ws V c t i) (fun i => iblk_wn V c t i)
      (fun i => (iblk_b V c t i).trans (hB i)))) cover

end Cert.Region2

end
-- ==== Proof.Region3.lean ====
/-
  The three dense layers on the vector unit: what the output array holds after the launch.

  The launch walks ten grid points; point t loads rows 5000 t … 5000 t + 4999 of the features x, the three weight matrices
  and the three bias rows whole, and stores  max(max(x·W0 + b0, 0)·W1 + b1, 0)·W2 + b2  into rows 5000 t … 5000 t + 4999 of
  the output.  Row p of that block is row 5000 t + p of the reference's three dense layers of the whole arrays (a matrix
  product, a bias row added to every row and a maximum with zero all treat rows separately, and a change of float format is
  the identity on extended reals); the ten blocks tile the array, so the array ends holding those layers.
  Stated for any contents of the device's buffers at the launch.
-/
import proofs.«127197_j29540785062522_1_alg».proof.Proof.Gen.KernelIdeal.Frame
import proofs.«127197_j29540785062522_1_alg».proof.Proof.Net
import proofs.«127197_j29540785062522_1_alg».proof.Proof.Dots
import proofs.«127197_j29540785062522_1_alg».proof.Proof.LibRowAlg
import proofs.«127197_j29540785062522_1_alg».proof.Proof.LibRowVec
import Idealize.ShloMosaic.Lib.Pipeline.Value
import Idealize.ShloMosaic.Lib.Tactic

set_option maxRecDepth 16384

noncomputable section

namespace Cert.Region3

open Cert.KernelIdeal Cert.KernelIdeal.Gen Idealize.ShloMosaic Idealize.ShloMosaic.TcCoe Idealize.SL.Sem
open Idealize.ShloMosaic.ValueIdx Cert.LibRowRel
open Idealize.ShloMosaic.Pipeline (Dat)

theorem hz : (![0, 0] : Fin 2 → Nat) = fun _ => 0 := funext fun a => by fin_cases a <;> rfl

/-- Row p of the block of grid point t is row 5000 t + p of the array. -/
def rowOf (t : Fin cfg3.N) : Fin 5000 → Fin 50000 := fun p =>
  ⟨t.val * 5000 + p.val, by have := lt_of_lt_of_eq t.isLt N_3; have := p.isLt; omega⟩

/-- The block indices of the eight windows at a grid point: the features and the output move with the point, the weights
    and the bias rows stay. -/
theorem idx_facts : ∀ t : Fin cfg3.N,
    (win3_0.index t (0 : Fin 2) = t.val ∧ win3_0.index t (1 : Fin 2) = 0)
    ∧ (win3_7.index t (0 : Fin 2) = t.val ∧ win3_7.index t (1 : Fin 2) = 0)
    ∧ (win3_1.index t (0 : Fin 2) = 0 ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0) ∧ True :=
  (by decide +kernel : ∀ t : Fin grid3.N, _)

variable (V : (c : Dev nD) → (b : Ref sig .tc) → Buf (Elt Ideal) ((c : Thread nD τ).loc b))

/-- The features' block at point t, entry (p, j), is entry (5000 t + p, j) of the features. -/
theorem iblk_x (c : Dev nD) (t : Fin cfg3.N) (p : Fin 5000) (j : Fin 128) :
    (iblk3 V c 0 t : Vec Ideal S5000x128 .f32) (ix2 p j)
      = (V c (Pipeline.arrRef spec3 0) : S50000x128.Idx → Elt Ideal .f32) (ix2 (rowOf t p) j) := by
  have e := (idx_facts t).1
  unfold iblk3
  rw [View.read_apply]
  show V c (Pipeline.arrRef spec3 0) _ = V c (Pipeline.arrRef spec3 0) _
  refine congrArg (V c (Pipeline.arrRef spec3 0)) ?_
  funext a
  apply Fin.ext
  match a with
  | ⟨0, _⟩ => show win3_0.index t 0 * 5000 + 1 * p.val = t.val * 5000 + p.val; rw [e.1]; omega
  | ⟨1, _⟩ => show win3_0.index t 1 * 128 + 1 * j.val = j.val; rw [e.2]; omega

/-- The first weights' block at every point is the whole matrix. -/
theorem iblk_w0 (c : Dev nD) (t : Fin cfg3.N) (i : S128x128.Idx) :
    (iblk3 V c 1 t : Vec Ideal S128x128 .f32) i = (V c (Pipeline.arrRef spec3 1) : S128x128.Idx → Elt Ideal .f32) i := by
  have e := (idx_facts t).2.2.1
  unfold iblk3
  rw [View.read_apply]
  show V c (Pipeline.arrRef spec3 1) _ = V c (Pipeline.arrRef spec3 1) _
  refine congrArg (V c (Pipeline.arrRef spec3 1)) ?_
  funext a
  apply Fin.ext
  match a with
  | ⟨0, _⟩ => show win3_1.index t 0 * 128 + 1 * (i 0).val = (i 0).val; rw [e.1]; omega
  | ⟨1, _⟩ => show win3_1.index t 1 * 128 + 1 * (i 1).val = (i 1).val; rw [e.2]; omega

/-- The first bias row's block at every point is the whole row. -/
theorem iblk_b0 (c : Dev nD) (t : Fin cfg3.N) (i : S1x128.Idx) :
    (iblk3 V c 2 t : Vec Ideal S1x128 .f32) i = (V c (Pipeline.arrRef spec3 2) : S1x128.Idx → Elt Ideal .f32) i := by
  have e := (idx_facts t).2.2.2.1
  unfold iblk3
  rw [View.read_apply]
  show V c (Pipeline.arrRef spec3 2) _ = V c (Pipeline.arrRef spec3 2) _
  refine congrArg (V c (Pipeline.arrRef spec3 2)) ?_
  funext a
  apply Fin.ext
  match a with
  | ⟨0, _⟩ => show win3_2.index t 0 * 1 + 1 * (i 0).val = (i 0).val; rw [e.1]; omega
  | ⟨1, _⟩ => show win3_2.index t 1 * 128 + 1 * (i 1).val = (i 1).val; rw [e.2]; omega

/-- The second weights' block at every point is the whole matrix. -/
theorem iblk_w1 (c : Dev nD) (t : Fin cfg3.N) (i : S128x128.Idx) :
    (iblk3 V c 3 t : Vec Ideal S128x128 .f32) i = (V c (Pipeline.arrRef spec3 3) : S128x128.Idx → Elt Ideal .f32) i := by
  have e := (idx_facts t).2.2.2.2.1
  unfold iblk3
  rw [View.read_apply]
  show V c (Pipeline.arrRef spec3 3) _ = V c (Pipeline.arrRef spec3 3) _
  refine congrArg (V c (Pipeline.arrRef spec3 3)) ?_
  funext a
  apply Fin.ext
  match a with
  | ⟨0, _⟩ => show win3_3.index t 0 * 128 + 1 * (i 0).val = (i 0).val; rw [e.1]; omega
  | ⟨1, _⟩ => show win3_3.index t 1 * 128 + 1 * (i 1).val = (i 1).val; rw [e.2]; omega

/-- The second bias row's block at every point is the whole row. -/
theorem iblk_b1 (c : Dev nD) (t : Fin cfg3.N) (i : S1x128.Idx) :
    (iblk3 V c 4 t : Vec Ideal S1x128 .f32) i = (V c (Pipeline.arrRef spec3 4) : S1x128.Idx → Elt Ideal .f32) i := by
  have e := (idx_facts t).2.2.2.2.2.1
  unfold iblk3
  rw [View.read_apply]
  show V c (Pipeline.arrRef spec3 4) _ = V c (Pipeline.arrRef spec3 4) _
  refine congrArg (V c (Pipeline.arrRef spec3 4)) ?_
  funext a
  apply Fin.ext
  match a with
  | ⟨0, _⟩ => show win3_4.index t 0 * 1 + 1 * (i 0).val = (i 0).val; rw [e.1]; omega
  | ⟨1, _⟩ => show win3_4.index t 1 * 128 + 1 * (i 1).val = (i 1).val; rw [e.2]; omega

/-- The third weights' block at every point is the whole matrix. -/
theorem iblk_w2 (c : Dev nD) (t : Fin cfg3.N) (i : S128x64.Idx) :
    (iblk3 V c 5 t : Vec Ideal S128x64 .f32) i = (V c (Pipeline.arrRef spec3 5) : S128x64.Idx → Elt Ideal .f32) i := by
  have e := (idx_facts t).2.2.2.2.2.2.1
  unfold iblk3
  rw [View.read_apply]
  show V c (Pipeline.arrRef spec3 5) _ = V c (Pipeline.arrRef spec3 5) _
  refine congrArg (V c (Pipeline.arrRef spec3 5)) ?_
  funext a
  apply Fin.ext
  match a with
  | ⟨0, _⟩ => show win3_5.index t 0 * 128 + 1 * (i 0).val = (i 0).val; rw [e.1]; omega
  | ⟨1, _⟩ => show win3_5.index t 1 * 64 + 1 * (i 1).val = (i 1).val; rw [e.2]; omega

/-- The third bias row's block at every point is the whole row. -/
theorem iblk_b2 (c : Dev nD) (t : Fin cfg3.N) (i : S1x64.Idx) :
    (iblk3 V c 6 t : Vec Ideal S1x64 .f32) i = (V c (Pipeline.arrRef spec3 6) : S1x64.Idx → Elt Ideal .f32) i := by
  have e := (idx_facts t).2.2.2.2.2.2.2.1
  unfold iblk3
  rw [View.read_apply]
  show V c (Pipeline.arrRef spec3 6) _ = V c (Pipeline.arrRef spec3 6) _
  refine congrArg (V c (Pipeline.arrRef spec3 6)) ?_
  funext a
  apply Fin.ext
  match a with
  | ⟨0, _⟩ => show win3_6.index t 0 * 1 + 1 * (i 0).val = (i 0).val; rw [e.1]; omega
  | ⟨1, _⟩ => show win3_6.index t 1 * 64 + 1 * (i 1).val = (i 1).val; rw [e.2]; omega

/-- The body's stored value of blocks whose rows are rows of the whole arrays is, row by row, the reference's three dense
    layers of the whole arrays. -/
theorem pay_rel {ρ : Fin 5000 → Fin 50000} (x0 : FVec Ideal S5000x128 .f32) (x1 : FVec Ideal S128x128 .f32) (x2 : FVec Ideal S1x128 .f32)
    (x3 : FVec Ideal S128x128 .f32) (x4 : FVec Ideal S1x128 .f32) (x5 : FVec Ideal S128x64 .f32) (x6 : FVec Ideal S1x64 .f32)
    (X : Cert.Net.Nodes) (W0 : Cert.Net.Wt) (B0 : Cert.Net.Bias) (W1 : Cert.Net.Wt) (B1 : Cert.Net.Bias) (W2 : Cert.Net.Wt64) (B2 : Cert.Net.Bias64)
    (h0 : Rel ρ x0 X) (h1 : ∀ i, (x1 i : EReal) = W0 i)
    (h2 : ∀ i, (x2 i : EReal) = broadcastInDim Cert.ReferenceIdeal.S1x128 ![1] Cert.ReferenceIdeal.Facts₀.bcast_S128_S1x128_1 B0 i)
    (h3 : ∀ i, (x3 i : EReal) = W1 i)
    (h4 : ∀ i, (x4 i : EReal) = broadcastInDim Cert.ReferenceIdeal.S1x128 ![1] Cert.ReferenceIdeal.Facts₀.bcast_S128_S1x128_1 B1 i)
    (h5 : ∀ i, (x5 i : EReal) = W2 i)
    (h6 : ∀ i, (x6 i : EReal) = broadcastInDim Cert.ReferenceIdeal.S1x64 ![1] Cert.ReferenceIdeal.Facts₀.bcast_S64_S1x64_1 B2 i) :
    Rel ρ (k3_pay1 x0 x1 x2 x3 x4 x5 x6) (Cert.Net.mlp X W0 B0 W1 B1 W2 B2) := by
  unfold k3_pay1 Cert.Net.mlp Cert.Net.dense64 Cert.Net.dense Cert.Net.relu
  exact Rel.addf
    (Rel.matmul Cert.Dots.kernel64 Cert.Dots.ref64
      (Rel.truncf_left _ (Rel.maximumf
        (Rel.addf
          (Rel.matmul Cert.Dots.kernel128 Cert.Dots.ref128
            (Rel.truncf_left _ (Rel.maximumf
              (Rel.addf
                (Rel.matmul Cert.Dots.kernel128 Cert.Dots.ref128 (Rel.truncf_left _ (Cert.RowAlg.castSelf_left h0 _)) (fun i => h1 i) none none)
                (Rel.biasRow (castSelf h2 _) _ _))
              (Rel.splat _ _)))
            (fun i => h3 i) none none)
          (Rel.biasRow (castSelf h4 _) _ _))
        (Rel.splat _ _)))
      (fun i => h5 i) none none)
    (Rel.biasRow (castSelf h6 _) _ _)

/-- What point t writes back is block t of the reference's dense layers of the arrays as the launch finds them. -/
theorem flushed_eq (c : Dev nD) (t : Fin cfg3.N) (G : Cert.Net.Out)
    (hG : Rel (rowOf t) (k3_pay1 (iblk3 V c 0 t) (iblk3 V c 1 t) (iblk3 V c 2 t) (iblk3 V c 3 t) (iblk3 V c 4 t) (iblk3 V c 5 t) (iblk3 V c 6 t)) G) :
    (dat3 V c).flushed 7 t = ((cfg3.win 7).blk t).view.read (Elt Ideal) G := by
  have e := (idx_facts t).2.1
  show (cfg3.win 7).cut (grid3.coords t) ((dat3 V c).after 7 t) = _
  rw [after3_7]
  unfold out3_7
  rw [View.canon_unit_zero hz]
  simp only [View.ld_unit_zero (S := S5000x128) hz, View.ld_unit_zero (S := S128x128) hz, View.ld_unit_zero (S := S1x128) hz,
    View.ld_unit_zero (S := S128x64) hz, View.ld_unit_zero (S := S1x64) hz]
  funext y
  obtain ⟨p, j, rfl⟩ : ∃ (p : Fin 5000) (j : Fin 64), y = ix2 p j := ⟨y 0, y 1, eq_ix2 y⟩
  rw [View.read_apply]
  refine (hG p j).trans ?_
  show G _ = G _
  refine congrArg G ?_
  funext a
  apply Fin.ext
  match a with
  | ⟨0, _⟩ => show t.val * 5000 + p.val = win3_7.index t 0 * 5000 + 1 * p.val; rw [e.1]; omega
  | ⟨1, _⟩ => show j.val = win3_7.index t 1 * 64 + 1 * j.val; rw [e.2]; omega

/-- An index of the output array is in point t's block iff each coordinate is in the block's range on its axis. -/
theorem mem_blk (t : Fin cfg3.N) (i : S50000x64.Idx) :
    i ∈ ((cfg3.win 7).blk t).view.set ↔ ∀ a : Fin 2, win3_7.index t a * S5000x64.size a ≤ (i a).val ∧ (i a).val < win3_7.index t a * S5000x64.size a + S5000x64.size a := by
  show i ∈ ((View.whole main_v63).slice (win3_7.rect t)).set ↔ _
  rw [View.set_slice_whole, Rect.mem_set_unit]
  exact Iff.rfl

/-- The ten blocks of 5000 rows tile the 50000 rows. -/
theorem cover (i : S50000x64.Idx) : ∃ t : Fin cfg3.N, (cfg3.win 7).flush t = true ∧ i ∈ ((cfg3.win 7).blk t).view.set := by
  have hi0 : (i 0).val < 50000 := (i 0).isLt
  have hi1 : (i 1).val < 64 := (i 1).isLt
  refine ⟨⟨(i 0).val / 5000, by rw [show cfg3.N = 10 from N_3]; omega⟩, flush3_7 _, ?_⟩
  have e := (idx_facts ⟨(i 0).val / 5000, by rw [show cfg3.N = 10 from N_3]; omega⟩).2.1
  rw [mem_blk]
  intro a
  match a with
  | ⟨0, _⟩ => show win3_7.index _ 0 * 5000 ≤ (i 0).val ∧ (i 0).val < win3_7.index _ 0 * 5000 + 5000; rw [e.1]; show (i 0).val / 5000 * 5000 ≤ _ ∧ _ < (i 0).val / 5000 * 5000 + 5000; omega
  | ⟨1, _⟩ => show win3_7.index _ 1 * 64 ≤ (i 1).val ∧ (i 1).val < win3_7.index _ 1 * 64 + 64; rw [e.2]; omega

/-- THE OUTPUT ARRAY after the launch: the reference's three dense layers of the input arrays as the launch finds them, when
    each bias row it finds is the bias vector laid out as one row. -/
theorem final (c : Dev nD) (B0 B1 : Cert.Net.Bias) (B2 : Cert.Net.Bias64)
    (hB0 : ∀ i, ((V c (Pipeline.arrRef spec3 2) : S1x128.Idx → Elt Ideal .f32) i : EReal)
      = broadcastInDim Cert.ReferenceIdeal.S1x128 ![1] Cert.ReferenceIdeal.Facts₀.bcast_S128_S1x128_1 B0 i)
    (hB1 : ∀ i, ((V c (Pipeline.arrRef spec3 4) : S1x128.Idx → Elt Ideal .f32) i : EReal)
      = broadcastInDim Cert.ReferenceIdeal.S1x128 ![1] Cert.ReferenceIdeal.Facts₀.bcast_S128_S1x128_1 B1 i)
    (hB2 : ∀ i, ((V c (Pipeline.arrRef spec3 6) : S1x64.Idx → Elt Ideal .f32) i : EReal)
      = broadcastInDim Cert.ReferenceIdeal.S1x64 ![1] Cert.ReferenceIdeal.Facts₀.bcast_S64_S1x64_1 B2 i) :
    (dat3 V c).arrAt 7 cfg3.N
      = Cert.Net.mlp (V c (Pipeline.arrRef spec3 0)) (V c (Pipeline.arrRef spec3 1)) B0 (V c (Pipeline.arrRef spec3 3)) B1 (V c (Pipeline.arrRef spec3 5)) B2 :=
  (dat3 V c).arrAt_eq_of_cover 7 _ (fun t _ => flushed_eq V c t _
    (pay_rel (iblk3 V c 0 t) (iblk3 V c 1 t) (iblk3 V c 2 t) (iblk3 V c 3 t) (iblk3 V c 4 t) (iblk3 V c 5 t) (iblk3 V c 6 t) _ _ B0 _ B1 _ B2
      (fun p j => iblk_x V c t p j) (fun i => iblk_w0 V c t i) (fun i => (iblk_b0 V c t i).trans (hB0 i))
      (fun i => iblk_w1 V c t i) (fun i => (iblk_b1 V c t i).trans (hB1 i))
      (fun i => iblk_w2 V c t i) (fun i => (iblk_b2 V c t i).trans (hB2 i)))) cover

end Cert.Region3

end
-- ==== Proof.Walk.lean ====
/-
  The idealized kernel's result as the network of its arguments.

  Walking the program's segments in order: the stretch of host operations before each message-passing launch
  computes the mean over the incoming edges of the current features and lays the layer's bias vector out as one
  row; the launch leaves the layer of those arrays in its output (one module per launch proves that); the stretch
  before the last launch lays the three dense layers' bias vectors out as rows, the launch leaves the three dense
  layers, and the last stretch pools the rows by graph.  The host operations are the reference's own, on arrays
  that are — layer after layer — the reference's, so the result is the reference's network of the arguments.
-/
import proofs.«127197_j29540785062522_1_alg».proof.Proof.WalkArgs
import proofs.«127197_j29540785062522_1_alg».proof.Proof.Stretch
import proofs.«127197_j29540785062522_1_alg».proof.Proof.Region0
import proofs.«127197_j29540785062522_1_alg».proof.Proof.Region1
import proofs.«127197_j29540785062522_1_alg».proof.Proof.Region2
import proofs.«127197_j29540785062522_1_alg».proof.Proof.Region3

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

/-- The kernel program's mean aggregation is the reference's: the same host operations (the two programs' records of
    dimension numbers are equal field by field). -/
theorem meanAgg_eq (x : Cert.Net.Nodes) (src dst : Cert.Net.Edges) :
    Cert.KernelIdeal.Stretch.mean (Cert.KernelIdeal.Stretch.sumRows x src dst)
      (Cert.KernelIdeal.Stretch.clipped (constant (F := Ideal) S_ .f32 0x3F800000#32) (Cert.KernelIdeal.Stretch.count dst)) = Cert.Net.meanAgg x src dst := rfl

/-- The kernel program's pooling is the reference's: the same host operations. -/
theorem pool_eq (y : Cert.Net.Out) (gid : Cert.Net.Gids) :
    Cert.KernelIdeal.Stretch.poolMean (Cert.KernelIdeal.Stretch.poolSum y gid)
      (Cert.KernelIdeal.Stretch.poolClipped (constant (F := Ideal) S_ .f32 0x3F800000#32) (Cert.KernelIdeal.Stretch.poolCount gid)) = Cert.Net.pool y gid := rfl

variable (m : (ℓ : Loc nD τ sig) → Buf (Elt Ideal) ℓ) (ρ : Dev nD → PrngReg) (c : Dev nD)

/-! ## The first message-passing layer -/

/-- The summed rows before launch 0, two stretches on. -/
theorem sum0 : W2 m ρ c (Proc.devRef .tc main_v9)
    = Cert.KernelIdeal.Stretch.sumRows (W0 m ρ c (Proc.devRef .tc main_arg0)) (W0 m ρ c (Proc.devRef .tc main_arg1)) (W0 m ρ c (Proc.devRef .tc main_arg2)) :=
  (Cert.KernelIdeal.Stretch.clipKeeps0 (W1 m ρ c)).trans (Cert.KernelIdeal.Stretch.sumRows0 (W0 m ρ c))

/-- The clipped count before launch 0. -/
theorem deg0 : W2 m ρ c (Proc.devRef .tc main_v14)
    = Cert.KernelIdeal.Stretch.clipped (constant (F := Ideal) S_ .f32 0x3F800000#32) (Cert.KernelIdeal.Stretch.count (W0 m ρ c (Proc.devRef .tc main_arg2))) :=
  (Cert.KernelIdeal.Stretch.clip0 (W1 m ρ c)).trans
    (congrArg₂ Cert.KernelIdeal.Stretch.clipped (Cert.KernelIdeal.Stretch.one0 (W0 m ρ c)) (Cert.KernelIdeal.Stretch.count0 (W0 m ρ c)))

/-- Before the first launch the aggregated-neighbours buffer holds the mean aggregation of the input features. -/
theorem agg0 : W3 m ρ c (Proc.devRef .tc main_v17) = Cert.Net.meanAgg (m ((c : Thread nD τ).loc main_arg0)) (m ((c : Thread nD τ).loc main_arg1)) (m ((c : Thread nD τ).loc main_arg2)) :=
  ((Cert.KernelIdeal.Stretch.mean0 (W2 m ρ c)).trans (congrArg₂ Cert.KernelIdeal.Stretch.mean (sum0 m ρ c) (deg0 m ρ c))).trans (by
    exact meanAgg_eq _ _ _)

/-- The first layer's bias row is its bias vector laid out as one row. -/
theorem bias0 (i : S1x128.Idx) : ((W3 m ρ c (Proc.devRef .tc main_v18) : S1x128.Idx → Elt Ideal .f32) i : EReal)
    = broadcastInDim Cert.ReferenceIdeal.S1x128 ![1] Cert.ReferenceIdeal.Facts₀.bcast_S128_S1x128_1 (m ((c : Thread nD τ).loc main_arg6)) i := by
  have e : W3 m ρ c (Proc.devRef .tc main_v18) = shapeCast S1x128 (m ((c : Thread nD τ).loc main_arg6)) shapeCasts_S128_S1x128 := by
    show StableHlo.after hostOps0_2 (StableHlo.after hostOps0_1 (StableHlo.after hostOps0 (W0 m ρ c))) (Proc.devRef .tc main_v18) = _
    after_results <;> rfl
  refine (congrFun e i).trans ?_
  exact Cert.LibRowVec.castRow_eq_bcastRow _ _ _ i

/-- After the first launch its output holds the features after the first layer. -/
theorem x1_eq : W4 m ρ c (Proc.devRef .tc main_v19) = Cert.Net.x1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  refine (W4_arr m ρ c 5).trans ((Cert.Region0.final (V3 m ρ) c (m ((c : Thread nD τ).loc main_arg6)) (bias0 m ρ c)).trans ?_)
  show Cert.Net.relu (Cert.Net.sage (W3 m ρ c (Proc.devRef .tc main_arg0)) (W3 m ρ c (Proc.devRef .tc main_v17)) (W3 m ρ c (Proc.devRef .tc main_arg4)) (W3 m ρ c (Proc.devRef .tc main_arg5)) (m ((c : Thread nD τ).loc main_arg6))) = _
  rw [arg3_0 m ρ c, agg0 m ρ c, arg3_4 m ρ c, arg3_5 m ρ c] <;> rfl

/-! ## The second message-passing layer -/

/-- The stretch before the second launch leaves the first layer's features in place. -/
theorem x1_at7 : W7 m ρ c (Proc.devRef .tc main_v19) = W4 m ρ c (Proc.devRef .tc main_v19) := by
  show StableHlo.after hostOps1_2 (StableHlo.after hostOps1_1 (StableHlo.after hostOps1 (W4 m ρ c))) (Proc.devRef .tc main_v19) = _
  after_results <;> rfl

/-- The summed rows before launch 1, two stretches on. -/
theorem sum1 : W6 m ρ c (Proc.devRef .tc main_v29)
    = Cert.KernelIdeal.Stretch.sumRows (W4 m ρ c (Proc.devRef .tc main_v19)) (W4 m ρ c (Proc.devRef .tc main_arg1)) (W4 m ρ c (Proc.devRef .tc main_arg2)) :=
  (Cert.KernelIdeal.Stretch.clipKeeps1 (W5 m ρ c)).trans (Cert.KernelIdeal.Stretch.sumRows1 (W4 m ρ c))

/-- The clipped count before launch 1. -/
theorem deg1 : W6 m ρ c (Proc.devRef .tc main_v34)
    = Cert.KernelIdeal.Stretch.clipped (constant (F := Ideal) S_ .f32 0x3F800000#32) (Cert.KernelIdeal.Stretch.count (W4 m ρ c (Proc.devRef .tc main_arg2))) :=
  (Cert.KernelIdeal.Stretch.clip1 (W5 m ρ c)).trans
    (congrArg₂ Cert.KernelIdeal.Stretch.clipped (Cert.KernelIdeal.Stretch.one1 (W4 m ρ c)) (Cert.KernelIdeal.Stretch.count1 (W4 m ρ c)))

/-- Before the second launch the aggregated-neighbours buffer holds the mean aggregation of the first layer's features. -/
theorem agg1 : W7 m ρ c (Proc.devRef .tc main_v37) = Cert.Net.meanAgg (W4 m ρ c (Proc.devRef .tc main_v19)) (m ((c : Thread nD τ).loc main_arg1)) (m ((c : Thread nD τ).loc main_arg2)) :=
  ((Cert.KernelIdeal.Stretch.mean1 (W6 m ρ c)).trans (congrArg₂ Cert.KernelIdeal.Stretch.mean (sum1 m ρ c) (deg1 m ρ c))).trans (by
    rw [arg4_1 m ρ c, arg4_2 m ρ c]
    exact meanAgg_eq _ _ _)

/-- The second layer's bias row is its bias vector laid out as one row. -/
theorem bias1 (i : S1x128.Idx) : ((W7 m ρ c (Proc.devRef .tc main_v38) : S1x128.Idx → Elt Ideal .f32) i : EReal)
    = broadcastInDim Cert.ReferenceIdeal.S1x128 ![1] Cert.ReferenceIdeal.Facts₀.bcast_S128_S1x128_1 (m ((c : Thread nD τ).loc main_arg9)) i := by
  have e : W7 m ρ c (Proc.devRef .tc main_v38) = shapeCast S1x128 (m ((c : Thread nD τ).loc main_arg9)) shapeCasts_S128_S1x128 := by
    show StableHlo.after hostOps1_2 (StableHlo.after hostOps1_1 (StableHlo.after hostOps1 (W4 m ρ c))) (Proc.devRef .tc main_v38) = _
    after_results <;> (rw [arg4_9 m ρ c] <;> rfl)
  refine (congrFun e i).trans ?_
  exact Cert.LibRowVec.castRow_eq_bcastRow _ _ _ i

/-- After the second launch its output holds the features after the second layer. -/
theorem x2_eq : W8 m ρ c (Proc.devRef .tc main_v39) = Cert.Net.x2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W8_arr m ρ c 5).trans ((Cert.Region1.final (V7 m ρ) c (m ((c : Thread nD τ).loc main_arg9)) (bias1 m ρ c)).trans ?_)
  show Cert.Net.relu (Cert.Net.sage (W7 m ρ c (Proc.devRef .tc main_v19)) (W7 m ρ c (Proc.devRef .tc main_v37)) (W7 m ρ c (Proc.devRef .tc main_arg7)) (W7 m ρ c (Proc.devRef .tc main_arg8)) (m ((c : Thread nD τ).loc main_arg9))) = _
  rw [x1_at7 m ρ c, agg1 m ρ c, arg7_7 m ρ c, arg7_8 m ρ c, x1_eq m ρ c] <;> rfl

/-! ## The third message-passing layer -/

/-- The stretch before the third launch leaves the second layer's features in place. -/
theorem x2_at11 : W11 m ρ c (Proc.devRef .tc main_v39) = W8 m ρ c (Proc.devRef .tc main_v39) := by
  show StableHlo.after hostOps2_2 (StableHlo.after hostOps2_1 (StableHlo.after hostOps2 (W8 m ρ c))) (Proc.devRef .tc main_v39) = _
  after_results <;> rfl

/-- The summed rows before launch 2, two stretches on. -/
theorem sum2 : W10 m ρ c (Proc.devRef .tc main_v49)
    = Cert.KernelIdeal.Stretch.sumRows (W8 m ρ c (Proc.devRef .tc main_v39)) (W8 m ρ c (Proc.devRef .tc main_arg1)) (W8 m ρ c (Proc.devRef .tc main_arg2)) :=
  (Cert.KernelIdeal.Stretch.clipKeeps2 (W9 m ρ c)).trans (Cert.KernelIdeal.Stretch.sumRows2 (W8 m ρ c))

/-- The clipped count before launch 2. -/
theorem deg2 : W10 m ρ c (Proc.devRef .tc main_v54)
    = Cert.KernelIdeal.Stretch.clipped (constant (F := Ideal) S_ .f32 0x3F800000#32) (Cert.KernelIdeal.Stretch.count (W8 m ρ c (Proc.devRef .tc main_arg2))) :=
  (Cert.KernelIdeal.Stretch.clip2 (W9 m ρ c)).trans
    (congrArg₂ Cert.KernelIdeal.Stretch.clipped (Cert.KernelIdeal.Stretch.one2 (W8 m ρ c)) (Cert.KernelIdeal.Stretch.count2 (W8 m ρ c)))

/-- Before the third launch the aggregated-neighbours buffer holds the mean aggregation of the second layer's features. -/
theorem agg2 : W11 m ρ c (Proc.devRef .tc main_v57) = Cert.Net.meanAgg (W8 m ρ c (Proc.devRef .tc main_v39)) (m ((c : Thread nD τ).loc main_arg1)) (m ((c : Thread nD τ).loc main_arg2)) :=
  ((Cert.KernelIdeal.Stretch.mean2 (W10 m ρ c)).trans (congrArg₂ Cert.KernelIdeal.Stretch.mean (sum2 m ρ c) (deg2 m ρ c))).trans (by
    rw [arg8_1 m ρ c, arg8_2 m ρ c]
    exact meanAgg_eq _ _ _)

/-- The third layer's bias row is its bias vector laid out as one row. -/
theorem bias2 (i : S1x128.Idx) : ((W11 m ρ c (Proc.devRef .tc main_v58) : S1x128.Idx → Elt Ideal .f32) i : EReal)
    = broadcastInDim Cert.ReferenceIdeal.S1x128 ![1] Cert.ReferenceIdeal.Facts₀.bcast_S128_S1x128_1 (m ((c : Thread nD τ).loc main_arg12)) i := by
  have e : W11 m ρ c (Proc.devRef .tc main_v58) = shapeCast S1x128 (m ((c : Thread nD τ).loc main_arg12)) shapeCasts_S128_S1x128 := by
    show StableHlo.after hostOps2_2 (StableHlo.after hostOps2_1 (StableHlo.after hostOps2 (W8 m ρ c))) (Proc.devRef .tc main_v58) = _
    after_results <;> (rw [arg8_12 m ρ c] <;> rfl)
  refine (congrFun e i).trans ?_
  exact Cert.LibRowVec.castRow_eq_bcastRow _ _ _ i

/-- After the third launch its output holds the features after the third layer. -/
theorem x3_eq : W12 m ρ c (Proc.devRef .tc main_v59) = Cert.Net.x3 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W12_arr m ρ c 5).trans ((Cert.Region2.final (V11 m ρ) c (m ((c : Thread nD τ).loc main_arg12)) (bias2 m ρ c)).trans ?_)
  show Cert.Net.sage (W11 m ρ c (Proc.devRef .tc main_v39)) (W11 m ρ c (Proc.devRef .tc main_v57)) (W11 m ρ c (Proc.devRef .tc main_arg10)) (W11 m ρ c (Proc.devRef .tc main_arg11)) (m ((c : Thread nD τ).loc main_arg12)) = _
  rw [x2_at11 m ρ c, agg2 m ρ c, arg11_10 m ρ c, arg11_11 m ρ c, x2_eq m ρ c] <;> rfl

/-! ## The dense layers -/

/-- The stretch before the fourth launch leaves the third layer's features in place. -/
theorem x3_at13 : W13 m ρ c (Proc.devRef .tc main_v59) = W12 m ρ c (Proc.devRef .tc main_v59) := by
  show StableHlo.after hostOps3 (W12 m ρ c) (Proc.devRef .tc main_v59) = _
  after_results <;> rfl

/-- The first dense layer's bias row is its bias vector laid out as one row. -/
theorem biasL0 (i : S1x128.Idx) : ((W13 m ρ c (Proc.devRef .tc main_v60) : S1x128.Idx → Elt Ideal .f32) i : EReal)
    = broadcastInDim Cert.ReferenceIdeal.S1x128 ![1] Cert.ReferenceIdeal.Facts₀.bcast_S128_S1x128_1 (m ((c : Thread nD τ).loc main_arg14)) i := by
  have e : W13 m ρ c (Proc.devRef .tc main_v60) = shapeCast S1x128 (m ((c : Thread nD τ).loc main_arg14)) shapeCasts_S128_S1x128 := by
    show StableHlo.after hostOps3 (W12 m ρ c) (Proc.devRef .tc main_v60) = _
    after_results <;> (rw [arg12_14 m ρ c] <;> rfl)
  refine (congrFun e i).trans ?_
  exact Cert.LibRowVec.castRow_eq_bcastRow _ _ _ i

/-- The second dense layer's bias row is its bias vector laid out as one row. -/
theorem biasL1 (i : S1x128.Idx) : ((W13 m ρ c (Proc.devRef .tc main_v61) : S1x128.Idx → Elt Ideal .f32) i : EReal)
    = broadcastInDim Cert.ReferenceIdeal.S1x128 ![1] Cert.ReferenceIdeal.Facts₀.bcast_S128_S1x128_1 (m ((c : Thread nD τ).loc main_arg16)) i := by
  have e : W13 m ρ c (Proc.devRef .tc main_v61) = shapeCast S1x128 (m ((c : Thread nD τ).loc main_arg16)) shapeCasts_S128_S1x128 := by
    show StableHlo.after hostOps3 (W12 m ρ c) (Proc.devRef .tc main_v61) = _
    after_results <;> (rw [arg12_16 m ρ c] <;> rfl)
  refine (congrFun e i).trans ?_
  exact Cert.LibRowVec.castRow_eq_bcastRow _ _ _ i

/-- The third dense layer's bias row is its bias vector laid out as one row. -/
theorem biasL2 (i : S1x64.Idx) : ((W13 m ρ c (Proc.devRef .tc main_v62) : S1x64.Idx → Elt Ideal .f32) i : EReal)
    = broadcastInDim Cert.ReferenceIdeal.S1x64 ![1] Cert.ReferenceIdeal.Facts₀.bcast_S64_S1x64_1 (m ((c : Thread nD τ).loc main_arg18)) i := by
  have e : W13 m ρ c (Proc.devRef .tc main_v62) = shapeCast S1x64 (m ((c : Thread nD τ).loc main_arg18)) shapeCasts_S64_S1x64 := by
    show StableHlo.after hostOps3 (W12 m ρ c) (Proc.devRef .tc main_v62) = _
    after_results <;> (rw [arg12_18 m ρ c] <;> rfl)
  refine (congrFun e i).trans ?_
  exact Cert.LibRowVec.castRow_eq_bcastRow _ _ _ i

/-- After the fourth launch its output holds the three dense layers of the third layer's features. -/
theorem y_eq : W14 m ρ c (Proc.devRef .tc main_v63)
    = Cert.Net.mlp (Cert.Net.x3 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine (W14_arr m ρ c 7).trans ((Cert.Region3.final (V13 m ρ) c (m ((c : Thread nD τ).loc main_arg14)) (m ((c : Thread nD τ).loc main_arg16)) (m ((c : Thread nD τ).loc main_arg18)) (biasL0 m ρ c) (biasL1 m ρ c) (biasL2 m ρ c)).trans ?_)
  show Cert.Net.mlp (W13 m ρ c (Proc.devRef .tc main_v59)) (W13 m ρ c (Proc.devRef .tc main_arg13)) (m ((c : Thread nD τ).loc main_arg14)) (W13 m ρ c (Proc.devRef .tc main_arg15)) (m ((c : Thread nD τ).loc main_arg16)) (W13 m ρ c (Proc.devRef .tc main_arg17)) (m ((c : Thread nD τ).loc main_arg18)) = _
  rw [x3_at13 m ρ c, arg13_13 m ρ c, arg13_15 m ρ c, arg13_17 m ρ c, x3_eq m ρ c]

/-! ## The pooling -/

/-- The rows added by graph, two stretches on. -/
theorem psum : W16 m ρ c (Proc.devRef .tc main_v66)
    = Cert.KernelIdeal.Stretch.poolSum (W14 m ρ c (Proc.devRef .tc main_v63)) (W14 m ρ c (Proc.devRef .tc main_arg3)) :=
  (Cert.KernelIdeal.Stretch.poolClipKeeps4 (W15 m ρ c)).trans (Cert.KernelIdeal.Stretch.poolSum4 (W14 m ρ c))

/-- The clipped number of nodes by graph. -/
theorem pdeg : W16 m ρ c (Proc.devRef .tc main_v71)
    = Cert.KernelIdeal.Stretch.poolClipped (constant (F := Ideal) S_ .f32 0x3F800000#32) (Cert.KernelIdeal.Stretch.poolCount (W14 m ρ c (Proc.devRef .tc main_arg3))) :=
  (Cert.KernelIdeal.Stretch.poolClip4 (W15 m ρ c)).trans
    (congrArg₂ Cert.KernelIdeal.Stretch.poolClipped (Cert.KernelIdeal.Stretch.poolOne4 (W14 m ρ c)) (Cert.KernelIdeal.Stretch.poolCount4 (W14 m ρ c)))

/-- THE RESULT: the network of the arguments. -/
theorem result_eq : W17 m ρ c (Proc.devRef .tc main_v74)
    = Cert.Net.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) :=
  ((Cert.KernelIdeal.Stretch.poolMean4 (W16 m ρ c)).trans (congrArg₂ Cert.KernelIdeal.Stretch.poolMean (psum m ρ c) (pdeg m ρ c))).trans (by
    rw [arg14_3 m ρ c, y_eq m ρ c]
    exact pool_eq _ _)

end Cert.KernelIdeal.Walk

end
-- ==== Proof.lean ====
/-
  A three-layer message-passing network with three dense layers and a per-graph mean pooling, computed by four launches
  on the vector unit among host gathers and scatters, against the same network written with host operations only.

  At the ideal values (floats are extended reals, every operation exact, a change of float format the identity) the two
  programs compute one function of their arguments.  The host parts — the gather of the source rows, the two
  scatter-adds, the clipped degree, the quotient, the pooling — are the same operations in both programs.  Each
  message-passing launch stores, block of 5000 rows by block, (x·Wself + agg·Wneigh) + b where the reference has
  (x·Wself + b) + agg·Wneigh: equal because addition of extended reals is commutative and associative (no finiteness is
  used), a matrix product treats rows separately, and the ten blocks tile the rows.  The dense launch stores the reference's
  three dense layers block by block in the same way.  The bias rows are the bias vectors reshaped in one program and
  broadcast in the other: the same one-row matrices.

  Proof/Net.lean names the reference's layers and shows its run's result is their composition; Proof/Region0 … Region3 read
  each launch's output array; Proof/WalkArgs and Proof/Walk follow the program's segments from the launch to the return;
  Proof/KernelNamed is the kernel's run with its result named.  The ideal pass rewrote nothing, so the kernel's
  idealization is its own text and there is nothing to preserve.
-/
import proofs.«127197_j29540785062522_1_alg».proof.Defs
import proofs.«127197_j29540785062522_1_alg».proof.Proof.Gen.Kernel
import proofs.«127197_j29540785062522_1_alg».proof.Proof.Gen.Kernel.Frame
import proofs.«127197_j29540785062522_1_alg».proof.Proof.Gen.KernelIdeal
import proofs.«127197_j29540785062522_1_alg».proof.Proof.Gen.KernelIdeal.Frame
import proofs.«127197_j29540785062522_1_alg».proof.Proof.Gen.ReferenceIdeal
import proofs.«127197_j29540785062522_1_alg».proof.Proof.Gen.ReferenceIdeal.Run
import proofs.«127197_j29540785062522_1_alg».proof.Proof.Gen.ReferenceIdeal.Read
import proofs.«127197_j29540785062522_1_alg».proof.Proof.Gen.Pre_finite_inputs
import proofs.«127197_j29540785062522_1_alg».proof.Proof.Net
import proofs.«127197_j29540785062522_1_alg».proof.Proof.KernelNamed
import proofs.«127197_j29540785062522_1_alg».proof.Proof.Walk
import Idealize.ShloMosaic.Adequacy
import Idealize.ShloMosaic.Init

set_option maxRecDepth 16384

noncomputable section

namespace Cert.Proof

open Idealize.ShloMosaic Idealize.SL.Sem

/-- The word-level kernel runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The idealized reference runs and leaves its arguments as launched: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the network of the arguments in their result. -/
theorem algebraic : Cert.algebraic_KernelIdeal_ReferenceIdeal := by
  intro m ρ m' ρ' _ hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · exact (θ_run Cert.KernelIdeal.defs _ _).mono
      (fun r h c => ⟨(h c).1.trans (Cert.KernelIdeal.Walk.result_eq m ρ c), (h c).2⟩)
      (Cert.KernelIdeal.Named.run (F := Ideal) m ρ)
  · refine (θ_run Cert.ReferenceIdeal.defs _ _).mono (fun _ h c => ⟨((h c).1.trans (Cert.Net.ref_is_net m' c)).trans ?_, (h c).2⟩)
      (Cert.ReferenceIdeal.Value.run (F := Ideal) m' ρ')
    obtain ⟨e0, e1, e2, e3, e4, e5, e6, e7, e8, e9, e10, e11, e12, e13, e14, e15, e16, e17, e18⟩ := hagree c
    rw [e0, e1, e2, e3, e4, e5, e6, e7, e8, e9, e10, e11, e12, e13, e14, e15, e16, e17, e18]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
